-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x64 .f32) (main_arg3 : FVec F S64 .f32) (main_arg4 : FVec F S64x40 .f32) (main_arg5 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S64x40 : Shape := ⟨2, ![64, 40]⟩
abbrev S40 : Shape := ⟨1, ![40]⟩
abbrev S1x3200000 : Shape := ⟨2, ![1, 3200000]⟩
abbrev S3200000 : Shape := ⟨1, ![3200000]⟩
abbrev S1x64 : Shape := ⟨2, ![1, 64]⟩
abbrev S100000x64 : Shape := ⟨2, ![100000, 64]⟩
abbrev S4000x512 : Shape := ⟨2, ![4000, 512]⟩
abbrev S4000x64 : Shape := ⟨2, ![4000, 64]⟩
abbrev S_ : Shape := ⟨0, ![]⟩
abbrev S3200000x1 : Shape := ⟨2, ![3200000, 1]⟩
abbrev S3200000x64 : Shape := ⟨2, ![3200000, 64]⟩
abbrev S1x40 : Shape := ⟨2, ![1, 40]⟩
abbrev S100000x40 : Shape := ⟨2, ![100000, 40]⟩
abbrev S4000x40 : Shape := ⟨2, ![4000, 40]⟩
abbrev S3200000x40 : Shape := ⟨2, ![3200000, 40]⟩
abbrev S4000 : Shape := ⟨1, ![4000]⟩
abbrev S4000x1 : Shape := ⟨2, ![4000, 1]⟩

abbrev nBuf : Space → Nat
  | .hbm => 41
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S1x64, .f32⟩
  | .hbm, ⟨11, _⟩ => ⟨S100000x64, .f32⟩
  | .hbm, ⟨12, _⟩ => ⟨S_, .i32⟩
  | .hbm, ⟨13, _⟩ => ⟨S3200000, .i32⟩
  | .hbm, ⟨14, _⟩ => ⟨S3200000, .i1⟩
  | .hbm, ⟨15, _⟩ => ⟨S_, .i32⟩
  | .hbm, ⟨16, _⟩ => ⟨S3200000, .i32⟩
  | .hbm, ⟨17, _⟩ => ⟨S3200000, .i32⟩
  | .hbm, ⟨18, _⟩ => ⟨S3200000, .i32⟩
  | .hbm, ⟨19, _⟩ => ⟨S3200000x1, .i32⟩
  | .hbm, ⟨20, _⟩ => ⟨S3200000x64, .f32⟩
  | .hbm, ⟨21, _⟩ => ⟨S_, .f32⟩
  | .hbm, ⟨22, _⟩ => ⟨S100000x64, .f32⟩
  | .hbm, ⟨23, _⟩ => ⟨S3200000x1, .i32⟩
  | .hbm, ⟨24, _⟩ => ⟨S100000x64, .f32⟩
  | .hbm, ⟨25, _⟩ => ⟨S1x40, .f32⟩
  | .hbm, ⟨26, _⟩ => ⟨S100000x40, .f32⟩
  | .hbm, ⟨27, _⟩ => ⟨S_, .i32⟩
  | .hbm, ⟨28, _⟩ => ⟨S3200000, .i32⟩
  | .hbm, ⟨29, _⟩ => ⟨S3200000, .i1⟩
  | .hbm, ⟨30, _⟩ => ⟨S_, .i32⟩
  | .hbm, ⟨31, _⟩ => ⟨S3200000, .i32⟩
  | .hbm, ⟨32, _⟩ => ⟨S3200000, .i32⟩
  | .hbm, ⟨33, _⟩ => ⟨S3200000, .i32⟩
  | .hbm, ⟨34, _⟩ => ⟨S3200000x1, .i32⟩
  | .hbm, ⟨35, _⟩ => ⟨S3200000x40, .f32⟩
  | .hbm, ⟨36, _⟩ => ⟨S_, .f32⟩
  | .hbm, ⟨37, _⟩ => ⟨S100000x40, .f32⟩
  | .hbm, ⟨38, _⟩ => ⟨S3200000x1, .i32⟩
  | .hbm, ⟨39, _⟩ => ⟨S100000x40, .f32⟩
  | .hbm, ⟨40, _⟩ => ⟨S100000x40, .f32⟩
  | .local _ .vmem, ⟨0, _⟩ => ⟨S4000x512, .f32⟩
  | .local _ .vmem, ⟨1, _⟩ => ⟨S4000x512, .f32⟩
  | .local _ .vmem, ⟨2, _⟩ => ⟨S512x64, .f32⟩
  | .local _ .vmem, ⟨3, _⟩ => ⟨S1x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S4000x64, .f32⟩
  | .local _ .vmem, ⟨8, _⟩ => ⟨S64x40, .f32⟩
  | .local _ .vmem, ⟨9, _⟩ => ⟨S1x40, .f32⟩
  | .local _ .vmem, ⟨10, _⟩ => ⟨S4000x40, .f32⟩
  | .local _ .vmem, ⟨11, _⟩ => ⟨S4000x40, .f32⟩
  | .local _ .vmem, ⟨12, _⟩ => ⟨S4000x40, .f32⟩
  | .local _ .vmem, ⟨13, _⟩ => ⟨S4000x40, .f32⟩
  | .local _ .vmem, ⟨14, _⟩ => ⟨S4000x40, .f32⟩
  | .local _ .vmem, ⟨15, _⟩ => ⟨S4000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x40 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  shapeCasts_S64_S1x64 : S64.ShapeCasts S1x64
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x64 : S_.BroadcastsInDim S100000x64 (![] : Fin 0 → Fin S100000x64.rank)
  shapeCasts_S40_S1x40 : S40.ShapeCasts S1x40
  shapeCasts_S4000x64_S4000x64 : S4000x64.ShapeCasts S4000x64
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  inb_S4000x40_S4000x40_0_0 : ∀ a, (![0, 0] : Fin 2 → Nat) a + S4000x40.size a ≤ S4000x40.size a
  h_S4000x40 : 0 < S4000x40.numel
  bcast_S_S100000x40 : S_.BroadcastsInDim S100000x40 (![] : Fin 0 → Fin S100000x40.rank)
  shapeCasts_S4000x40_S4000x40 : S4000x40.ShapeCasts S4000x40
  reduces_S4000x40_S4000 : S4000x40.Reduces [1] S4000
  shapeCasts_S4000_S4000x1 : S4000.ShapeCasts S4000x1
  broadcasts_S4000x1_S4000x40 : S4000x1.Broadcasts S4000x40
  dot_S4000x512_S512x64_S4000x64_1_0_0_1_n_n_wf : DotDims.WF S4000x512 S512x64 S4000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S4000x64_S64x40_S4000x40_1_0_0_1_n_n_wf : DotDims.WF S4000x64 S64x40 S4000x40 [1] [0] [0] [1] [] []
  gather_S100000x40_S3200000x1_S3200000x40_1_0_n_n_0_1_140_wf : GatherDims.WF S100000x40 S3200000x1 S3200000x40 [1] [0] [] [0] [] 1 ![1, 40]
  scatter_S100000x40_S3200000x1_S3200000x40_1_0_0_1_wf : ScatterDims.WF S100000x40 S3200000x1 S3200000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .f32 = 32 ∨ (Rect.block (s := S100000x64) S4000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x40.size a ≤ S64x40.size a
  hwx1_1 : ∀ i : grid1.Coords, EltTy.bits .f32 = 32 ∨ (Rect.block (s := S64x40) S64x40.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x40.size a ≤ S1x40.size a
  hwx1_2 : ∀ i : grid1.Coords, EltTy.bits .f32 = 32 ∨ (Rect.block (s := S1x40) S1x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x40.size a ≤ S100000x40.size a
  hwx1_3 : ∀ i : grid1.Coords, EltTy.bits .f32 = 32 ∨ (Rect.block (s := S100000x40) S4000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x40.size a ≤ S100000x40.size a
  hwx2_0 : ∀ i : grid2.Coords, EltTy.bits .f32 = 32 ∨ (Rect.block (s := S100000x40) S4000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x40.size a ≤ S100000x40.size a
  hwx2_1 : ∀ i : grid2.Coords, EltTy.bits .f32 = 32 ∨ (Rect.block (s := S100000x40) S4000x40.size (cc2_transform_1 i) (hinb2_1 i)).WholeWords (EltTy.packing .f32)

variable [Facts₀]

def dot_S4000x512_S512x64_S4000x64_1_0_0_1_n_n : DotDims S4000x512 S512x64 S4000x64 where
  lhsContracting := [1]
  rhsContracting := [0]
  lhsNonContracting := [0]
  rhsNonContracting := [1]
  lhsBatch := []
  rhsBatch := []
  wf := dot_S4000x512_S512x64_S4000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S4000x64_S64x40_S4000x40_1_0_0_1_n_n : DotDims S4000x64 S64x40 S4000x40 where
  lhsContracting := [1]
  rhsContracting := [0]
  lhsNonContracting := [0]
  rhsNonContracting := [1]
  lhsBatch := []
  rhsBatch := []
  wf := dot_S4000x64_S64x40_S4000x40_1_0_0_1_n_n_wf
def gather_S100000x40_S3200000x1_S3200000x40_1_0_n_n_0_1_140 : GatherDims S100000x40 S3200000x1 S3200000x40 where
  offsetDims := [1]
  collapsedSliceDims := [0]
  operandBatchingDims := []
  startIndicesBatchingDims := []
  startIndexMap := [0]
  indexVectorDim := 1
  sliceSizes := ![1, 40]
  wf := gather_S100000x40_S3200000x1_S3200000x40_1_0_n_n_0_1_140_wf
def scatter_S100000x40_S3200000x1_S3200000x40_1_0_0_1 : ScatterDims S100000x40 S3200000x1 S3200000x40 where
  updateWindowDims := [1]
  insertedWindowDims := [0]
  scatterDimsToOperandDims := [0]
  indexVectorDim := 1
  wf := scatter_S100000x40_S3200000x1_S3200000x40_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S4000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v27) S4000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S4000x40.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S64x40 : Shape := ⟨2, ![64, 40]⟩
abbrev S40 : Shape := ⟨1, ![40]⟩
abbrev S100000x64 : Shape := ⟨2, ![100000, 64]⟩
abbrev S1x64 : Shape := ⟨2, ![1, 64]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x64 : Shape := ⟨2, ![3200000, 64]⟩
abbrev S100000x40 : Shape := ⟨2, ![100000, 40]⟩
abbrev S1x40 : Shape := ⟨2, ![1, 40]⟩
abbrev S3200000x40 : Shape := ⟨2, ![3200000, 40]⟩
abbrev S100000 : Shape := ⟨1, ![100000]⟩
abbrev S100000x1 : Shape := ⟨2, ![100000, 1]⟩

abbrev nBuf : Space → Nat
  | .hbm => 78
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000x64, .f32⟩
  | .hbm, ⟨7, _⟩ => ⟨S1x64, .f32⟩
  | .hbm, ⟨8, _⟩ => ⟨S100000x64, .f32⟩
  | .hbm, ⟨9, _⟩ => ⟨S100000x64, .f32⟩
  | .hbm, ⟨10, _⟩ => ⟨S1x3200000, .i32⟩
  | .hbm, ⟨11, _⟩ => ⟨S3200000, .i32⟩
  | .hbm, ⟨12, _⟩ => ⟨S1x3200000, .i32⟩
  | .hbm, ⟨13, _⟩ => ⟨S3200000, .i32⟩
  | .hbm, ⟨14, _⟩ => ⟨S_, .i32⟩
  | .hbm, ⟨15, _⟩ => ⟨S3200000, .i32⟩
  | .hbm, ⟨16, _⟩ => ⟨S3200000, .i1⟩
  | .hbm, ⟨17, _⟩ => ⟨S_, .i32⟩
  | .hbm, ⟨18, _⟩ => ⟨S3200000, .i32⟩
  | .hbm, ⟨19, _⟩ => ⟨S3200000, .i32⟩
  | .hbm, ⟨20, _⟩ => ⟨S3200000, .i32⟩
  | .hbm, ⟨21, _⟩ => ⟨S3200000x1, .i32⟩
  | .hbm, ⟨22, _⟩ => ⟨S3200000x64, .f32⟩
  | .hbm, ⟨23, _⟩ => ⟨S_, .f32⟩
  | .hbm, ⟨24, _⟩ => ⟨S100000x64, .f32⟩
  | .hbm, ⟨25, _⟩ => ⟨S3200000x1, .i32⟩
  | .hbm, ⟨26, _⟩ => ⟨S100000x64, .f32⟩
  | .hbm, ⟨27, _⟩ => ⟨S_, .f32⟩
  | .hbm, ⟨28, _⟩ => ⟨S100000x64, .f32⟩
  | .hbm, ⟨29, _⟩ => ⟨S100000x64, .i1⟩
  | .hbm, ⟨30, _⟩ => ⟨S_, .f32⟩
  | .hbm, ⟨31, _⟩ => ⟨S100000x64, .f32⟩
  | .hbm, ⟨32, _⟩ => ⟨S100000x64, .i1⟩
  | .hbm, ⟨33, _⟩ => ⟨S_, .f32⟩
  | .hbm, ⟨34, _⟩ => ⟨S_, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S_, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x40, .f32⟩
  | .hbm, ⟨43, _⟩ => ⟨S1x40, .f32⟩
  | .hbm, ⟨44, _⟩ => ⟨S100000x40, .f32⟩
  | .hbm, ⟨45, _⟩ => ⟨S100000x40, .f32⟩
  | .hbm, ⟨46, _⟩ => ⟨S1x3200000, .i32⟩
  | .hbm, ⟨47, _⟩ => ⟨S3200000, .i32⟩
  | .hbm, ⟨48, _⟩ => ⟨S1x3200000, .i32⟩
  | .hbm, ⟨49, _⟩ => ⟨S3200000, .i32⟩
  | .hbm, ⟨50, _⟩ => ⟨S_, .i32⟩
  | .hbm, ⟨51, _⟩ => ⟨S3200000, .i32⟩
  | .hbm, ⟨52, _⟩ => ⟨S3200000, .i1⟩
  | .hbm, ⟨53, _⟩ => ⟨S_, .i32⟩
  | .hbm, ⟨54, _⟩ => ⟨S3200000, .i32⟩
  | .hbm, ⟨55, _⟩ => ⟨S3200000, .i32⟩
  | .hbm, ⟨56, _⟩ => ⟨S3200000, .i32⟩
  | .hbm, ⟨57, _⟩ => ⟨S3200000x1, .i32⟩
  | .hbm, ⟨58, _⟩ => ⟨S3200000x40, .f32⟩
  | .hbm, ⟨59, _⟩ => ⟨S_, .f32⟩
  | .hbm, ⟨60, _⟩ => ⟨S100000x40, .f32⟩
  | .hbm, ⟨61, _⟩ => ⟨S3200000x1, .i32⟩
  | .hbm, ⟨62, _⟩ => ⟨S100000x40, .f32⟩
  | .hbm, ⟨63, _⟩ => ⟨S_, .f32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x40, .f32⟩
  | .hbm, ⟨70, _⟩ => ⟨S100000x40, .f32⟩
  | .hbm, ⟨71, _⟩ => ⟨S100000x40, .f32⟩
  | .hbm, ⟨72, _⟩ => ⟨S_, .f32⟩
  | .hbm, ⟨73, _⟩ => ⟨S100000, .f32⟩
  | .hbm, ⟨74, _⟩ => ⟨S100000x1, .f32⟩
  | .hbm, ⟨75, _⟩ => ⟨S100000x1, .f32⟩
  | .hbm, ⟨76, _⟩ => ⟨S100000x40, .f32⟩
  | .hbm, ⟨77, _⟩ => ⟨S100000x40, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_cst_0 : Ref sig .tc := ⟨.hbm, 30, rfl⟩
abbrev main_call0_v2 : Ref sig .tc := ⟨.hbm, 31, rfl⟩
abbrev main_call0_v3 : Ref sig .tc := ⟨.hbm, 32, rfl⟩
abbrev main_call0_cst_1 : Ref sig .tc := ⟨.hbm, 33, rfl⟩
abbrev main_call0_call0_v0 : Ref sig .tc := ⟨.hbm, 34, rfl⟩
abbrev main_call0_call0_v1 : Ref sig .tc := ⟨.hbm, 35, rfl⟩
abbrev main_call0_v4 : Ref sig .tc := ⟨.hbm, 36, rfl⟩
abbrev main_call0_v5 : Ref sig .tc := ⟨.hbm, 37, rfl⟩
abbrev main_call0_cst_2 : Ref sig .tc := ⟨.hbm, 38, rfl⟩
abbrev main_call0_v6 : Ref sig .tc := ⟨.hbm, 39, rfl⟩
abbrev main_call0_v7 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_1 : Ref sig .tc := ⟨.hbm, 50, rfl⟩
abbrev main_v27 : Ref sig .tc := ⟨.hbm, 51, rfl⟩
abbrev main_v28 : Ref sig .tc := ⟨.hbm, 52, rfl⟩
abbrev main_c_2 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_3 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_call1_cst : Ref sig .tc := ⟨.hbm, 63, rfl⟩
abbrev main_call1_v0 : Ref sig .tc := ⟨.hbm, 64, rfl⟩
abbrev main_call1_cst_0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_v6 : Ref sig .tc := ⟨.hbm, 71, rfl⟩
abbrev main_call1_cst_1 : Ref sig .tc := ⟨.hbm, 72, rfl⟩
abbrev main_call1_v7 : Ref sig .tc := ⟨.hbm, 73, rfl⟩
abbrev main_call1_v8 : Ref sig .tc := ⟨.hbm, 74, rfl⟩
abbrev main_call1_v9 : Ref sig .tc := ⟨.hbm, 75, rfl⟩
abbrev main_call1_v10 : Ref sig .tc := ⟨.hbm, 76, rfl⟩
abbrev main_v37 : Ref sig .tc := ⟨.hbm, 77, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x64 : S_.BroadcastsInDim S100000x64 (![] : Fin 0 → Fin S100000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  bcast_S_S100000x40 : S_.BroadcastsInDim S100000x40 (![] : Fin 0 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x512_S512x64_S100000x64_1_0_0_1_n_n_wf : DotDims.WF S100000x512 S512x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x40_S100000x40_1_0_0_1_n_n_wf : DotDims.WF S100000x64 S64x40 S100000x40 [1] [0] [0] [1] [] []
  gather_S100000x40_S3200000x1_S3200000x40_1_0_n_n_0_1_140_wf : GatherDims.WF S100000x40 S3200000x1 S3200000x40 [1] [0] [] [0] [] 1 ![1, 40]
  scatter_S100000x40_S3200000x1_S3200000x40_1_0_0_1_wf : ScatterDims.WF S100000x40 S3200000x1 S3200000x40 [1] [0] [0] 1

variable [Facts₀]

def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S3200000x1_S3200000x40_1_0_n_n_0_1_140 : GatherDims S100000x40 S3200000x1 S3200000x40 where
  offsetDims := [1]
  collapsedSliceDims := [0]
  operandBatchingDims := []
  startIndicesBatchingDims := []
  startIndexMap := [0]
  indexVectorDim := 1
  sliceSizes := ![1, 40]
  wf := gather_S100000x40_S3200000x1_S3200000x40_1_0_n_n_0_1_140_wf
def scatter_S100000x40_S3200000x1_S3200000x40_1_0_0_1 : ScatterDims S100000x40 S3200000x1 S3200000x40 where
  updateWindowDims := [1]
  insertedWindowDims := [0]
  scatterDimsToOperandDims := [0]
  indexVectorDim := 1
  wf := scatter_S100000x40_S3200000x1_S3200000x40_1_0_0_1_wf

class Facts : Prop extends Facts₀ where

variable [Facts]
-- ==== Proof.KRun.lean ====
/-
  The idealized kernel's whole run with its result named: every weakly fair execution of the three
  launches and the host lines between them ends, nothing faulting, with the result buffer holding what
  the last launch's write-backs leave of the contents it was entered with, and the six arguments as launched.
  The contents at each boundary are a fold: the host lines' results over the previous boundary's contents,
  and at a launch's exit its arrays at what its grid points wrote back.
-/
import proofs.«169057_j40063454937539_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, its last thread state read against the final memory at the result buffer as well as at the arguments. -/
theorem run : θ_run defs (onTc (τ := τ) (main (F := F))) ⟨m, fun _ => 0, ρ⟩ (fun r => ∀ c : Dev nD,
      r.2.mem ((c.tc : Thread nD τ).loc main_v28) = W6 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v28 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.KRun

end
-- ==== Proof.Spec.lean ====
/-
  The three dense stages of the two-layer graph network, index by index over the extended reals:
  a dense layer (a row of the input against a column of the weights, plus the bias), the
  exponential-linear unit, and the row-wise log-softmax. Both programs are shown to compute these.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A dense layer: entry (r, q) is the sum over k of x(r, k) · w(k, q), plus the bias at q. -/
def dense {n k d : Nat} (x : (⟨2, ![n, k]⟩ : Shape).Idx → EReal) (w : (⟨2, ![k, d]⟩ : Shape).Idx → EReal)
    (b : Fin d → EReal) : (⟨2, ![n, d]⟩ : Shape).Idx → EReal :=
  fun i => (∑ kk : Fin k, x (ix2 (i 0) kk) * w (ix2 kk (i 1))) + b (i 1)

/-- The exponential-linear unit on one extended real: the identity above zero, e^min(h, 0) − 1 elsewhere. -/
def elu (h : EReal) : EReal := if 0 < h then h else Ideal.exp (min h 0) - 1

/-- The largest entry of row r, folded from the pattern of −∞. -/
def rowMax {n d : Nat} (x : (⟨2, ![n, d]⟩ : Shape).Idx → EReal) (r : Fin n) : EReal :=
  (Finset.univ : Finset (Fin d)).fold max (Ideal.ofBits .f32 0xFF800000#32) (fun k => x (ix2 r k))

/-- The row-wise log-softmax: each entry less its row's maximum, less the logarithm of the row's sum of
    exponentials of the entries so shifted. -/
def logSoftmax {n d : Nat} (x : (⟨2, ![n, d]⟩ : Shape).Idx → EReal) : (⟨2, ![n, d]⟩ : Shape).Idx → EReal :=
  fun i => (x i - rowMax x (i 0)) - Ideal.log (∑ k : Fin d, Ideal.exp (x (ix2 (i 0) k) - rowMax x (i 0)))

end Cert.Spec

end
-- ==== Proof.KPay0.lean ====
/-
  The first launch's block, index by index: the product of a block of 4000 rows of the input with the
  whole weight matrix, accumulated from zero, plus the bias row broadcast down the block. At the exact
  values the two roundings to the 16-bit format on the way into the product are the identity, and the product
  into a zero accumulator is the plain sum over the 512 contracted coordinates.
-/
import proofs.«169057_j40063454937539_2_alg».proof.Proof.Gen.KernelIdeal.Skeleton
import proofs.«169057_j40063454937539_2_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.KPay

open Idealize.ShloMosaic Idealize.ShloMosaic.ValueIdx Cert.KernelIdeal Cert.KernelIdeal.Gen

/-- The dimension numbers of the first product: rows × 512 against 512 × 64. -/
abbrev D0 : DotDims S4000x512 S512x64 S4000x64 := dot_S4000x512_S512x64_S4000x64_1_0_0_1_n_n

/-- The left operand is read at the output's row … -/
theorem lhs0_0 (i : S4000x64.Idx) (q : D0.contr.Idx) : (D0.lhsIdx i q 0).val = (i 0).val := by
  unfold DotDims.lhsIdx
  rw [dif_neg (show ¬(0 : Fin S4000x512.rank) ∈ D0.lhsBatch by decide), dif_pos (show (0 : Fin S4000x512.rank) ∈ D0.lhsNonContracting by decide)]
  rfl
/-- … and the contracted coordinate; -/
theorem lhs0_1 (i : S4000x64.Idx) (q : D0.contr.Idx) : (D0.lhsIdx i q 1).val = (q ⟨0, by decide⟩).val :=
  D0.lhsIdx_val_of_single rfl i q
/-- the right operand at the contracted coordinate … -/
theorem rhs0_0 (i : S4000x64.Idx) (q : D0.contr.Idx) : (D0.rhsIdx i q 0).val = (q ⟨0, by decide⟩).val :=
  D0.rhsIdx_val_of_single rfl i q
/-- … and the output's column. -/
theorem rhs0_1 (i : S4000x64.Idx) (q : D0.contr.Idx) : (D0.rhsIdx i q 1).val = (i 1).val := by
  unfold DotDims.rhsIdx
  rw [dif_neg (show ¬(1 : Fin S512x64.rank) ∈ D0.rhsBatch by decide), dif_pos (show (1 : Fin S512x64.rank) ∈ D0.rhsNonContracting by decide)]
  rfl

/-- The product into the zero accumulator, at row p and column q: the sum over k of a(p, k) · b(k, q). -/
theorem matmul0_apply (a : FVec Ideal S4000x512 .bf16) (b : FVec Ideal S512x64 .bf16) (p : Fin 4000) (q : Fin 64) :
    matmul D0 none a b (constant (F := Ideal) S4000x64 .f32 0x00000000#32) (ix2 p q) = ∑ k : Fin 512, a (ix2 p k) * b (ix2 k q) := by
  simp only [matmul]
  rw [Ideal.matmul_constant_zero_apply, ← Equiv.sum_comp (contrEquiv1 D0 512 rfl rfl).symm]
  refine Finset.sum_congr rfl fun k _ => ?_
  have hk := contrEquiv1_symm_val D0 512 rfl rfl k
  have el : D0.lhsIdx (ix2 p q) ((contrEquiv1 D0 512 rfl rfl).symm k) = ix2 p k := funext fun ax => Fin.ext (by
    match ax with
    | ⟨0, _⟩ => exact lhs0_0 _ _
    | ⟨1, _⟩ => exact (lhs0_1 _ _).trans hk)
  have er : D0.rhsIdx (ix2 p q) ((contrEquiv1 D0 512 rfl rfl).symm k) = ix2 k q := funext fun ax => Fin.ext (by
    match ax with
    | ⟨0, _⟩ => exact (rhs0_0 _ _).trans hk
    | ⟨1, _⟩ => exact rhs0_1 _ _)
  rw [el, er]

/-- The block the first launch stores, at row p and column q of the block: the sum over k of x(p, k) · w(k, q),
    plus the bias at q. -/
theorem pay0_apply (x0 : Vec Ideal S4000x512 .f32) (x1 : Vec Ideal S512x64 .f32) (x2 : Vec Ideal S1x64 .f32)
    (p : Fin 4000) (q : Fin 64) :
    k0_pay1 (F := Ideal) x0 x1 x2 (ix2 p q) = (∑ k : Fin 512, x0 (ix2 p k) * x1 (ix2 k q)) + x2 (ix2 (0 : Fin 1) q) := by
  unfold k0_pay1
  show matmul D0 none (truncf .bf16 x0 _) (truncf .bf16 x1 _) (constant (F := Ideal) S4000x64 .f32 0x00000000#32) (ix2 p q)
      + broadcastTo S4000x64 (shapeCast S1x64 x2 _) _ (ix2 p q) = _
  rw [matmul0_apply, shapeCast_self, broadcastTo_1b_ab_apply]
  rfl

end Cert.KernelIdeal.KPay

end
-- ==== Proof.KReg0.lean ====
/-
  The first launch's output array, whole: grid point t writes back rows 4000·t … 4000·t + 3999, each entry the
  dense layer's value at that row and column of the arrays the launch was entered with; the 25 blocks tile the
  100000 rows, so the array ends as the dense layer of the whole input.
-/
import proofs.«169057_j40063454937539_2_alg».proof.Proof.Gen.KernelIdeal.Frame
import proofs.«169057_j40063454937539_2_alg».proof.Proof.KPay0

set_option maxRecDepth 16384

noncomputable section

namespace Cert.KernelIdeal.KReg0

open Idealize.ShloMosaic Idealize.ShloMosaic.ValueIdx Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The dense layer of the arrays the launch finds: the input, the weights, and the bias row. -/
def G (c : Dev nD) : S100000x64.Idx → Elt Ideal .f32 :=
  Cert.Spec.dense (n := 100000) (k := 512) (d := 64) (V c main_arg0) (V c main_arg2) (fun q => V c main_v4 (ix2 (0 : Fin 1) q))

/-- The index maps over the grid: the input's and the output's row block is the point's number, every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the dense layer. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S4000x512) hz, View.ld_unit_zero (S := S512x64) hz, View.ld_unit_zero (S := S1x64) hz]
  obtain ⟨e00, e01, e10, e11, e20, e21, e30, e31⟩ := idx_facts t
  funext j
  show k0_pay1 (F := Ideal) (iblk0 V c 0 t) (iblk0 V c 1 t) (iblk0 V c 2 t) j = G V c (((cfg0.win 3).blk t).view.emb j)
  refine (congrArg (k0_pay1 (F := Ideal) (iblk0 V c 0 t) (iblk0 V c 1 t) (iblk0 V c 2 t)) (eq_ix2 (n0 := 4000) (n1 := 64) j)).trans ?_
  refine (KPay.pay0_apply (iblk0 V c 0 t) (iblk0 V c 1 t) (iblk0 V c 2 t) (j 0) (j 1)).trans ?_
  have hj0 : (j 0).val < 4000 := (j 0).isLt
  have hj1 : (j 1).val < 64 := (j 1).isLt
  have h0 : ∀ k : Fin 512, ((cfg0.win 0).blk t).view.emb (ix2 (j 0) k) = ix2 ((((cfg0.win 3).blk t).view.emb j) 0) k := fun k => by
    funext a; apply Fin.ext
    match a with
    | ⟨0, _⟩ => show win0_0.index t (0 : Fin 2) * 4000 + 1 * (j 0).val = win0_3.index t (0 : Fin 2) * 4000 + 1 * (j 0).val; omega
    | ⟨1, _⟩ => show win0_0.index t (1 : Fin 2) * 512 + 1 * k.val = k.val; omega
  have h1 : ∀ k : Fin 512, ((cfg0.win 1).blk t).view.emb (ix2 k (j 1)) = ix2 k ((((cfg0.win 3).blk t).view.emb j) 1) := fun k => by
    funext a; apply Fin.ext
    match a with
    | ⟨0, _⟩ => show win0_1.index t (0 : Fin 2) * 512 + 1 * k.val = k.val; omega
    | ⟨1, _⟩ => show win0_1.index t (1 : Fin 2) * 64 + 1 * (j 1).val = win0_3.index t (1 : Fin 2) * 64 + 1 * (j 1).val; omega
  have h2 : ((cfg0.win 2).blk t).view.emb (ix2 (0 : Fin 1) (j 1)) = ix2 (0 : Fin 1) ((((cfg0.win 3).blk t).view.emb j) 1) := by
    funext a; apply Fin.ext
    match a with
    | ⟨0, _⟩ => show win0_2.index t (0 : Fin 2) * 1 + 1 * 0 = 0; omega
    | ⟨1, _⟩ => show win0_2.index t (1 : Fin 2) * 64 + 1 * (j 1).val = win0_3.index t (1 : Fin 2) * 64 + 1 * (j 1).val; omega
  unfold G Cert.Spec.dense
  refine congr (congrArg HAdd.hAdd (Finset.sum_congr rfl fun k _ => ?_)) ?_
  · refine congr (congrArg HMul.hMul ?_) ?_
    · show V c main_arg0 (((cfg0.win 0).blk t).view.emb (ix2 (j 0) k)) = _
      exact congrArg (V c main_arg0) (h0 k)
    · show V c main_arg2 (((cfg0.win 1).blk t).view.emb (ix2 k (j 1))) = _
      exact congrArg (V c main_arg2) (h1 k)
  · show V c main_v4 (((cfg0.win 2).blk t).view.emb (ix2 (0 : Fin 1) (j 1))) = _
    exact congrArg (V c main_v4) h2

/-- An index of the array is in point t's block iff each coordinate is in the block's range on its axis. -/
theorem mem_blk (t : Fin cfg0.N) (i : S100000x64.Idx) :
    i ∈ ((cfg0.win 3).blk t).view.set ↔ ∀ a : Fin 2, win0_3.index t a * S4000x64.size a ≤ (i a).val ∧ (i a).val < win0_3.index t a * S4000x64.size a + S4000x64.size a := by
  show i ∈ ((View.whole main_v5).slice (win0_3.rect t)).set ↔ _
  rw [View.set_slice_whole, Rect.mem_set_unit]
  exact Iff.rfl

/-- Row r lies in the block of point r / 4000. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 25 := N_0
  refine ⟨⟨(i 0).val / 4000, by rw [hN]; omega⟩, flush0_3 _, ?_⟩
  rw [mem_blk]
  obtain ⟨-, -, -, -, -, -, e30, e31⟩ := idx_facts ⟨(i 0).val / 4000, by rw [hN]; omega⟩
  intro a
  match a with
  | ⟨0, _⟩ =>
    show win0_3.index _ (0 : Fin 2) * 4000 ≤ (i 0).val ∧ (i 0).val < win0_3.index _ (0 : Fin 2) * 4000 + 4000
    rw [e30]; show (i 0).val / 4000 * 4000 ≤ (i 0).val ∧ (i 0).val < (i 0).val / 4000 * 4000 + 4000; omega
  | ⟨1, _⟩ =>
    show win0_3.index _ (1 : Fin 2) * 64 ≤ (i 1).val ∧ (i 1).val < win0_3.index _ (1 : Fin 2) * 64 + 64
    rw [e31]; omega

/-- The output array after the launch: the dense layer of the arrays it was entered with. -/
theorem final (c : Dev nD) : (dat0 V c).arrAt 3 cfg0.N = G V c :=
  (dat0 V c).arrAt_eq_of_cover 3 (G V c) (fun t _ => flushed_eq V c t) (cover)

end Cert.KernelIdeal.KReg0

end
-- ==== Proof.KPay1.lean ====
/-
  The second launch's block, index by index: the exponential-linear unit applied to a block of 4000 rows
  of the aggregated features, the result against the whole 64 × 40 weight matrix accumulated from zero, plus
  the bias row. The unit is written select(h > 0, h, e^min(h, 0) − 1): above zero the value itself, elsewhere
  the exponential of the value less one.
-/
import proofs.«169057_j40063454937539_2_alg».proof.Proof.Gen.KernelIdeal.Skeleton
import proofs.«169057_j40063454937539_2_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.KPay

open Idealize.ShloMosaic Idealize.ShloMosaic.ValueIdx Cert.KernelIdeal Cert.KernelIdeal.Gen

/-- The dimension numbers of the second product: rows × 64 against 64 × 40. -/
abbrev D1 : DotDims S4000x64 S64x40 S4000x40 := dot_S4000x64_S64x40_S4000x40_1_0_0_1_n_n

theorem lhs1_0 (i : S4000x40.Idx) (q : D1.contr.Idx) : (D1.lhsIdx i q 0).val = (i 0).val := by
  unfold DotDims.lhsIdx
  rw [dif_neg (show ¬(0 : Fin S4000x64.rank) ∈ D1.lhsBatch by decide), dif_pos (show (0 : Fin S4000x64.rank) ∈ D1.lhsNonContracting by decide)]
  rfl
theorem lhs1_1 (i : S4000x40.Idx) (q : D1.contr.Idx) : (D1.lhsIdx i q 1).val = (q ⟨0, by decide⟩).val :=
  D1.lhsIdx_val_of_single rfl i q
theorem rhs1_0 (i : S4000x40.Idx) (q : D1.contr.Idx) : (D1.rhsIdx i q 0).val = (q ⟨0, by decide⟩).val :=
  D1.rhsIdx_val_of_single rfl i q
theorem rhs1_1 (i : S4000x40.Idx) (q : D1.contr.Idx) : (D1.rhsIdx i q 1).val = (i 1).val := by
  unfold DotDims.rhsIdx
  rw [dif_neg (show ¬(1 : Fin S64x40.rank) ∈ D1.rhsBatch by decide), dif_pos (show (1 : Fin S64x40.rank) ∈ D1.rhsNonContracting by decide)]
  rfl

/-- The product into the zero accumulator, at row p and column q: the sum over k of a(p, k) · b(k, q). -/
theorem matmul1_apply (a : FVec Ideal S4000x64 .bf16) (b : FVec Ideal S64x40 .bf16) (p : Fin 4000) (q : Fin 40) :
    matmul D1 none a b (constant (F := Ideal) S4000x40 .f32 0x00000000#32) (ix2 p q) = ∑ k : Fin 64, a (ix2 p k) * b (ix2 k q) := by
  simp only [matmul]
  rw [Ideal.matmul_constant_zero_apply, ← Equiv.sum_comp (contrEquiv1 D1 64 rfl rfl).symm]
  refine Finset.sum_congr rfl fun k _ => ?_
  have hk := contrEquiv1_symm_val D1 64 rfl rfl k
  have el : D1.lhsIdx (ix2 p q) ((contrEquiv1 D1 64 rfl rfl).symm k) = ix2 p k := funext fun ax => Fin.ext (by
    match ax with
    | ⟨0, _⟩ => exact lhs1_0 _ _
    | ⟨1, _⟩ => exact (lhs1_1 _ _).trans hk)
  have er : D1.rhsIdx (ix2 p q) ((contrEquiv1 D1 64 rfl rfl).symm k) = ix2 k q := funext fun ax => Fin.ext (by
    match ax with
    | ⟨0, _⟩ => exact (rhs1_0 _ _).trans hk
    | ⟨1, _⟩ => exact rhs1_1 _ _)
  rw [el, er]

/-- The word of 1.0 denotes the real one. -/
theorem ofBits_one_f32 : Ideal.ofBits .f32 0x3F800000#32 = 1 := IdealRules.sign_bit.ideal_onePat .f32

/-- The body's unit on one value: select(h > 0, h, e^min(h, 0) − 1) is the exponential-linear unit. -/
theorem elu_scalar (h : Ideal .f32) :
    Scalar.select (FloatOps.cmpf .ogt h (Scalar.ofBits (F := Ideal) .f32 0x00000000#32)) h
        (FloatOps.subf (FloatOps.exp (FloatOps.minimumf h (Scalar.ofBits (F := Ideal) .f32 0x00000000#32)))
          (Scalar.ofBits (F := Ideal) .f32 0x3F800000#32))
      = Cert.Spec.elu h := by
  show Scalar.select (Ideal.cmp .ogt h (Ideal.ofBits .f32 0x00000000#32)) h
      (Ideal.exp (min h (Ideal.ofBits .f32 0x00000000#32)) - Ideal.ofBits .f32 0x3F800000#32) = _
  rw [Ideal.ofBits_zero_f32, ofBits_one_f32]
  unfold Cert.Spec.elu
  by_cases hp : (0 : EReal) < h
  · have hc : Ideal.cmp .ogt h 0 = 1#1 := by simp [Ideal.cmp, hp]
    rw [hc, select_one, if_pos hp]
  · have hc : Ideal.cmp .ogt h 0 = 0#1 := by simp [Ideal.cmp, hp]
    rw [hc, select_zero, if_neg hp]

/-- The block the second launch stores, at row p and column q of the block: the sum over k of
    elu(h(p, k)) · w(k, q), plus the bias at q. -/
theorem pay1_apply (x0 : Vec Ideal S4000x64 .f32) (x1 : Vec Ideal S64x40 .f32) (x2 : Vec Ideal S1x40 .f32)
    (p : Fin 4000) (q : Fin 40) :
    k1_pay1 (F := Ideal) x0 x1 x2 (ix2 p q)
      = (∑ k : Fin 64, Cert.Spec.elu (x0 (ix2 p k)) * x1 (ix2 k q)) + x2 (ix2 (0 : Fin 1) q) := by
  unfold k1_pay1
  show matmul D1 none _ (truncf .bf16 x1 _) (constant (F := Ideal) S4000x40 .f32 0x00000000#32) (ix2 p q)
      + broadcastTo S4000x40 (shapeCast S1x40 x2 _) _ (ix2 p q) = _
  rw [matmul1_apply, shapeCast_self x2, shapeCast_self x0, broadcastTo_1b_ab_apply]
  refine congrArg (· + x2 (ix2 (0 : Fin 1) q)) (Finset.sum_congr rfl fun k _ => ?_)
  exact congrArg (· * x1 (ix2 k q)) (elu_scalar (x0 (ix2 p k)))

end Cert.KernelIdeal.KPay

end
-- ==== Proof.KReg1.lean ====
/-
  The second launch's output array, whole: grid point t writes back rows 4000·t … 4000·t + 3999, each entry the
  dense layer's value — over the exponential-linear unit of the aggregated features — at that row and column of
  the arrays the launch was entered with; the 25 blocks tile the 100000 rows.
-/
import proofs.«169057_j40063454937539_2_alg».proof.Proof.Gen.KernelIdeal.Frame
import proofs.«169057_j40063454937539_2_alg».proof.Proof.KPay1

set_option maxRecDepth 16384

noncomputable section

namespace Cert.KernelIdeal.KReg1

open Idealize.ShloMosaic Idealize.ShloMosaic.ValueIdx Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The dense layer over the unit of the features the launch finds, with the weights and the bias row it finds. -/
def G (c : Dev nD) : S100000x40.Idx → Elt Ideal .f32 :=
  Cert.Spec.dense (n := 100000) (k := 64) (d := 40) (fun j => Cert.Spec.elu (V c main_v15 j)) (V c main_arg4) (fun q => V c main_v16 (ix2 (0 : Fin 1) q))

/-- The index maps over the grid: the input's and the output's row block is the point's number, every other block index is zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of that dense layer. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S4000x64) hz, View.ld_unit_zero (S := S64x40) hz, View.ld_unit_zero (S := S1x40) hz]
  obtain ⟨e00, e01, e10, e11, e20, e21, e30, e31⟩ := idx_facts t
  funext j
  show k1_pay1 (F := Ideal) (iblk1 V c 0 t) (iblk1 V c 1 t) (iblk1 V c 2 t) j = G V c (((cfg1.win 3).blk t).view.emb j)
  refine (congrArg (k1_pay1 (F := Ideal) (iblk1 V c 0 t) (iblk1 V c 1 t) (iblk1 V c 2 t)) (eq_ix2 (n0 := 4000) (n1 := 40) j)).trans ?_
  refine (KPay.pay1_apply (iblk1 V c 0 t) (iblk1 V c 1 t) (iblk1 V c 2 t) (j 0) (j 1)).trans ?_
  have hj0 : (j 0).val < 4000 := (j 0).isLt
  have hj1 : (j 1).val < 40 := (j 1).isLt
  have h0 : ∀ k : Fin 64, ((cfg1.win 0).blk t).view.emb (ix2 (j 0) k) = ix2 ((((cfg1.win 3).blk t).view.emb j) 0) k := fun k => by
    funext a; apply Fin.ext
    match a with
    | ⟨0, _⟩ => show win1_0.index t (0 : Fin 2) * 4000 + 1 * (j 0).val = win1_3.index t (0 : Fin 2) * 4000 + 1 * (j 0).val; omega
    | ⟨1, _⟩ => show win1_0.index t (1 : Fin 2) * 64 + 1 * k.val = k.val; omega
  have h1 : ∀ k : Fin 64, ((cfg1.win 1).blk t).view.emb (ix2 k (j 1)) = ix2 k ((((cfg1.win 3).blk t).view.emb j) 1) := fun k => by
    funext a; apply Fin.ext
    match a with
    | ⟨0, _⟩ => show win1_1.index t (0 : Fin 2) * 64 + 1 * k.val = k.val; omega
    | ⟨1, _⟩ => show win1_1.index t (1 : Fin 2) * 40 + 1 * (j 1).val = win1_3.index t (1 : Fin 2) * 40 + 1 * (j 1).val; omega
  have h2 : ((cfg1.win 2).blk t).view.emb (ix2 (0 : Fin 1) (j 1)) = ix2 (0 : Fin 1) ((((cfg1.win 3).blk t).view.emb j) 1) := by
    funext a; apply Fin.ext
    match a with
    | ⟨0, _⟩ => show win1_2.index t (0 : Fin 2) * 1 + 1 * 0 = 0; omega
    | ⟨1, _⟩ => show win1_2.index t (1 : Fin 2) * 40 + 1 * (j 1).val = win1_3.index t (1 : Fin 2) * 40 + 1 * (j 1).val; omega
  unfold G Cert.Spec.dense
  refine congr (congrArg HAdd.hAdd (Finset.sum_congr rfl fun k _ => ?_)) ?_
  · refine congr (congrArg HMul.hMul ?_) ?_
    · show Cert.Spec.elu (V c main_v15 (((cfg1.win 0).blk t).view.emb (ix2 (j 0) k))) = _
      exact congrArg (fun z => Cert.Spec.elu (V c main_v15 z)) (h0 k)
    · show V c main_arg4 (((cfg1.win 1).blk t).view.emb (ix2 k (j 1))) = _
      exact congrArg (V c main_arg4) (h1 k)
  · show V c main_v16 (((cfg1.win 2).blk t).view.emb (ix2 (0 : Fin 1) (j 1))) = _
    exact congrArg (V c main_v16) h2

/-- An index of the array is in point t's block iff each coordinate is in the block's range on its axis. -/
theorem mem_blk (t : Fin cfg1.N) (i : S100000x40.Idx) :
    i ∈ ((cfg1.win 3).blk t).view.set ↔ ∀ a : Fin 2, win1_3.index t a * S4000x40.size a ≤ (i a).val ∧ (i a).val < win1_3.index t a * S4000x40.size a + S4000x40.size a := by
  show i ∈ ((View.whole main_v17).slice (win1_3.rect t)).set ↔ _
  rw [View.set_slice_whole, Rect.mem_set_unit]
  exact Iff.rfl

/-- Row r lies in the block of point r / 4000. -/
theorem cover (i : S100000x40.Idx) : ∃ t : Fin cfg1.N, (cfg1.win 3).flush t = true ∧ i ∈ ((cfg1.win 3).blk t).view.set := by
  have hi0 : (i 0).val < 100000 := (i 0).isLt
  have hi1 : (i 1).val < 40 := (i 1).isLt
  have hN : cfg1.N = 25 := N_1
  refine ⟨⟨(i 0).val / 4000, by rw [hN]; omega⟩, flush1_3 _, ?_⟩
  rw [mem_blk]
  obtain ⟨-, -, -, -, -, -, e30, e31⟩ := idx_facts ⟨(i 0).val / 4000, by rw [hN]; omega⟩
  intro a
  match a with
  | ⟨0, _⟩ =>
    show win1_3.index _ (0 : Fin 2) * 4000 ≤ (i 0).val ∧ (i 0).val < win1_3.index _ (0 : Fin 2) * 4000 + 4000
    rw [e30]; show (i 0).val / 4000 * 4000 ≤ (i 0).val ∧ (i 0).val < (i 0).val / 4000 * 4000 + 4000; omega
  | ⟨1, _⟩ =>
    show win1_3.index _ (1 : Fin 2) * 40 ≤ (i 1).val ∧ (i 1).val < win1_3.index _ (1 : Fin 2) * 40 + 40
    rw [e31]; omega

/-- The output array after the launch: that dense layer of the arrays it was entered with. -/
theorem final (c : Dev nD) : (dat1 V c).arrAt 3 cfg1.N = G V c :=
  (dat1 V c).arrAt_eq_of_cover 3 (G V c) (fun t _ => flushed_eq V c t) (cover)

end Cert.KernelIdeal.KReg1

end
-- ==== Proof.KPay2.lean ====
/-
  The third launch's block, index by index: each row of a block of 4000 rows less its maximum, less the
  logarithm of the row's sum of exponentials of the entries so shifted. The row maximum and the row sum are lane
  reductions over the 40 columns, kept as a column and broadcast back along the row.
-/
import proofs.«169057_j40063454937539_2_alg».proof.Proof.Gen.KernelIdeal.Skeleton
import proofs.«169057_j40063454937539_2_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.KPay

open Idealize.ShloMosaic Idealize.ShloMosaic.ValueIdx Cert.KernelIdeal Cert.KernelIdeal.Gen

variable {α : Type}

/-- An `[a]` array cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane maximum over the 40 columns, at row p: the fold of max from the pattern of −∞ over the row. -/
theorem rowmax_apply (src : FVec Ideal S4000x40 .f32) (h : S4000x40.Reduces [1] S4000) (hφ : FKind.Formats .f32)
    (hacc : (0xFF800000#32 : BitVec 32) = 0xFF800000#32) (p : Fin 4000) :
    multiReduction .maximumf [1] S4000 src 0xFF800000#32 h hφ hacc (ix1 p) = Cert.Spec.rowMax src p := by
  refine (Ideal.multiReduction_maximumf_single src 0xFF800000#32 h hφ hacc (ix1 p)).trans ?_
  unfold Cert.Spec.rowMax
  refine congrArg (Finset.univ.fold max _) (funext fun k => ?_)
  exact congrArg src (funext fun ax => Fin.ext (by
    match ax with
    | ⟨0, _⟩ => rfl
    | ⟨1, _⟩ => rfl))

/-- The lane sum over the 40 columns from the zero word, at row p: the sum over the row. -/
theorem rowsum_apply (src : FVec Ideal S4000x40 .f32) (h : S4000x40.Reduces [1] S4000) (hφ : FKind.Formats .f32)
    (hacc : (0x00000000#32 : BitVec 32) = 0x00000000#32) (p : Fin 4000) :
    multiReduction .add [1] S4000 src 0x00000000#32 h hφ hacc (ix1 p) = ∑ k : Fin 40, src (ix2 p k) := by
  refine (Ideal.multiReduction_add_single src 0x00000000#32 h hφ hacc (ix1 p)).trans ?_
  refine Finset.sum_congr rfl fun k _ => ?_
  exact congrArg src (funext fun ax => Fin.ext (by
    match ax with
    | ⟨0, _⟩ => rfl
    | ⟨1, _⟩ => rfl))

/-- The vector exponential and logarithm read at an index. -/
theorem exp_apply {s : Shape} (v : FVec Ideal s .f32) (i : s.Idx) : exp v i = Ideal.exp (v i) := rfl
theorem log_apply {s : Shape} (v : FVec Ideal s .f32) (i : s.Idx) : log v i = Ideal.log (v i) := rfl

/-- A row's entry less the row maximum, as the body computes it: the maximum reduced over the lanes, kept as a
    column and broadcast back along the row. -/
theorem shifted_apply (x0 : FVec Ideal S4000x40 .f32) (h : S4000x40.Reduces [1] S4000) (hφ : FKind.Formats .f32)
    (hacc : (0xFF800000#32 : BitVec 32) = 0xFF800000#32) (h1 : S4000.ShapeCasts S4000x1)
    (h2 : S4000x1.Broadcasts S4000x40) (p : Fin 4000) (k : Fin 40) :
    subf x0 (broadcastTo S4000x40 (shapeCast S4000x1 (multiReduction .maximumf [1] S4000 x0 0xFF800000#32 h hφ hacc) h1) h2) (ix2 p k)
      = x0 (ix2 p k) - Cert.Spec.rowMax x0 p := by
  rw [subf_apply, broadcastTo_a1_ab_apply, shapeCast_a_a1_apply, rowmax_apply]

/-- The block the third launch stores is the row-wise log-softmax of the block it loads. -/
theorem pay2_apply (x0 : Vec Ideal S4000x40 .f32) (p : Fin 4000) (q : Fin 40) :
    k2_pay1 (F := Ideal) x0 (ix2 p q) = Cert.Spec.logSoftmax x0 (ix2 p q) := by
  unfold k2_pay1
  dsimp only
  rw [shapeCast_self x0]
  unfold Cert.Spec.logSoftmax
  rw [subf_apply, shifted_apply, broadcastTo_a1_ab_apply, log_apply, shapeCast_a_a1_apply, rowsum_apply]
  refine congrArg (fun z => (x0 (ix2 p q) - Cert.Spec.rowMax x0 p) - Ideal.log z) (Finset.sum_congr rfl fun k _ => ?_)
  rw [exp_apply, shifted_apply]

end Cert.KernelIdeal.KPay

end
-- ==== Proof.SpecRow.lean ====
/-
  The row-wise log-softmax of an entry depends on the entry's row only: two arrays that agree along a row
  (possibly at different row numbers) have the same log-softmax along it.
-/
import proofs.«169057_j40063454937539_2_alg».proof.Proof.Spec

noncomputable section

namespace Cert.Spec

open Idealize.ShloMosaic Idealize.ShloMosaic.ValueIdx

theorem logSoftmax_congr {n n' d : Nat} (x : (⟨2, ![n, d]⟩ : Shape).Idx → EReal) (y : (⟨2, ![n', d]⟩ : Shape).Idx → EReal)
    (r : Fin n) (r' : Fin n') (q : Fin d) (h : ∀ k : Fin d, x (ix2 r k) = y (ix2 r' k)) :
    logSoftmax x (ix2 r q) = logSoftmax y (ix2 r' q) := by
  have hm : rowMax x r = rowMax y r' := by
    unfold rowMax
    exact congrArg (Finset.univ.fold max _) (funext h)
  show (x (ix2 r q) - rowMax x r) - Ideal.log (∑ k : Fin d, Ideal.exp (x (ix2 r k) - rowMax x r))
      = (y (ix2 r' q) - rowMax y r') - Ideal.log (∑ k : Fin d, Ideal.exp (y (ix2 r' k) - rowMax y r'))
  rw [hm, h q]
  exact congrArg (fun z => (y (ix2 r' q) - rowMax y r') - Ideal.log z) (Finset.sum_congr rfl fun k _ => by rw [h k])

end Cert.Spec

end
-- ==== Proof.KReg2.lean ====
/-
  The third launch's output array, whole: grid point t writes back rows 4000·t … 4000·t + 3999, each row the
  log-softmax of the same row of the array the launch was entered with (a row's log-softmax depends on that row
  only); the 25 blocks tile the 100000 rows.
-/
import proofs.«169057_j40063454937539_2_alg».proof.Proof.Gen.KernelIdeal.Frame
import proofs.«169057_j40063454937539_2_alg».proof.Proof.KPay2
import proofs.«169057_j40063454937539_2_alg».proof.Proof.SpecRow

set_option maxRecDepth 16384

noncomputable section

namespace Cert.KernelIdeal.KReg2

open Idealize.ShloMosaic Idealize.ShloMosaic.ValueIdx Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The row-wise log-softmax of the array the launch finds. -/
def G (c : Dev nD) : S100000x40.Idx → Elt Ideal .f32 :=
  Cert.Spec.logSoftmax (n := 100000) (d := 40) (V c main_v27)

/-- The index maps over the grid: the input's and the output's row block is the point's number, the column block zero. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- What point t writes back is block t of the log-softmax. -/
theorem flushed_eq (c : Dev nD) (t : Fin cfg2.N) :
    (dat2 V c).flushed 1 t = ((cfg2.win 1).blk t).view.read (Elt Ideal) (G V c) := by
  show (cfg2.win 1).cut (grid2.coords t) ((dat2 V c).after 1 t) = _
  rw [after2_1]
  unfold out2_1
  rw [View.canon_unit_zero hz]
  simp only [View.ld_unit_zero (S := S4000x40) hz]
  obtain ⟨e00, e01, e10, e11⟩ := idx_facts t
  funext j
  show k2_pay1 (F := Ideal) (iblk2 V c 0 t) j = G V c (((cfg2.win 1).blk t).view.emb j)
  refine (congrArg (k2_pay1 (F := Ideal) (iblk2 V c 0 t)) (eq_ix2 (n0 := 4000) (n1 := 40) j)).trans ?_
  refine (KPay.pay2_apply (iblk2 V c 0 t) (j 0) (j 1)).trans ?_
  have hj0 : (j 0).val < 4000 := (j 0).isLt
  have hj1 : (j 1).val < 40 := (j 1).isLt
  have h0 : ∀ k : Fin 40, ((cfg2.win 0).blk t).view.emb (ix2 (j 0) k) = ix2 ((((cfg2.win 1).blk t).view.emb j) 0) k := fun k => by
    funext a; apply Fin.ext
    match a with
    | ⟨0, _⟩ => show win2_0.index t (0 : Fin 2) * 4000 + 1 * (j 0).val = win2_1.index t (0 : Fin 2) * 4000 + 1 * (j 0).val; omega
    | ⟨1, _⟩ => show win2_0.index t (1 : Fin 2) * 40 + 1 * k.val = k.val; omega
  have he : ((cfg2.win 1).blk t).view.emb j = ix2 ((((cfg2.win 1).blk t).view.emb j) 0) (j 1) := by
    funext a; apply Fin.ext
    match a with
    | ⟨0, _⟩ => rfl
    | ⟨1, _⟩ => show win2_1.index t (1 : Fin 2) * 40 + 1 * (j 1).val = (j 1).val; omega
  have hrow : ∀ k : Fin 40, iblk2 V c 0 t (ix2 (j 0) k) = V c main_v27 (ix2 ((((cfg2.win 1).blk t).view.emb j) 0) k) := fun k =>
    (show iblk2 V c 0 t (ix2 (j 0) k) = V c main_v27 (((cfg2.win 0).blk t).view.emb (ix2 (j 0) k)) from rfl).trans
      (congrArg (V c main_v27) (h0 k))
  unfold G
  exact (Cert.Spec.logSoftmax_congr (n := 4000) (n' := 100000) (d := 40) (iblk2 V c 0 t) (V c main_v27) (j 0)
    ((((cfg2.win 1).blk t).view.emb j) 0) (j 1) hrow).trans (congrArg (Cert.Spec.logSoftmax (n := 100000) (d := 40) (V c main_v27)) he.symm)

/-- An index of the array is in point t's block iff each coordinate is in the block's range on its axis. -/
theorem mem_blk (t : Fin cfg2.N) (i : S100000x40.Idx) :
    i ∈ ((cfg2.win 1).blk t).view.set ↔ ∀ a : Fin 2, win2_1.index t a * S4000x40.size a ≤ (i a).val ∧ (i a).val < win2_1.index t a * S4000x40.size a + S4000x40.size a := by
  show i ∈ ((View.whole main_v28).slice (win2_1.rect t)).set ↔ _
  rw [View.set_slice_whole, Rect.mem_set_unit]
  exact Iff.rfl

/-- Row r lies in the block of point r / 4000. -/
theorem cover (i : S100000x40.Idx) : ∃ t : Fin cfg2.N, (cfg2.win 1).flush t = true ∧ i ∈ ((cfg2.win 1).blk t).view.set := by
  have hi0 : (i 0).val < 100000 := (i 0).isLt
  have hi1 : (i 1).val < 40 := (i 1).isLt
  have hN : cfg2.N = 25 := N_2
  refine ⟨⟨(i 0).val / 4000, by rw [hN]; omega⟩, flush2_1 _, ?_⟩
  rw [mem_blk]
  obtain ⟨-, -, e10, e11⟩ := idx_facts ⟨(i 0).val / 4000, by rw [hN]; omega⟩
  intro a
  match a with
  | ⟨0, _⟩ =>
    show win2_1.index _ (0 : Fin 2) * 4000 ≤ (i 0).val ∧ (i 0).val < win2_1.index _ (0 : Fin 2) * 4000 + 4000
    rw [e10]; show (i 0).val / 4000 * 4000 ≤ (i 0).val ∧ (i 0).val < (i 0).val / 4000 * 4000 + 4000; omega
  | ⟨1, _⟩ =>
    show win2_1.index _ (1 : Fin 2) * 40 ≤ (i 1).val ∧ (i 1).val < win2_1.index _ (1 : Fin 2) * 40 + 40
    rw [e11]; omega

/-- The output array after the launch: the log-softmax of the array it was entered with. -/
theorem final (c : Dev nD) : (dat2 V c).arrAt 1 cfg2.N = G V c :=
  (dat2 V c).arrAt_eq_of_cover 1 (G V c) (fun t _ => flushed_eq V c t) (cover)

end Cert.KernelIdeal.KReg2

end
-- ==== Proof.KHost.lean ====
/-
  The idealized kernel's result as one function of its six arguments. The contents of the buffers at the
  boundaries between host lines and launches are read back one boundary at a time: a host line's result is its
  function of its operands, a launch's output array is the whole-array function of the arrays it was entered with,
  and every other buffer is as it was. The edge aggregation — the gather of rows by source node and the scatter-add
  by destination node — is carried as one function of the features and of the two index vectors; it is never opened.
-/
import proofs.«169057_j40063454937539_2_alg».proof.Proof.Gen.KernelIdeal.Frame
import proofs.«169057_j40063454937539_2_alg».proof.Proof.KReg0
import proofs.«169057_j40063454937539_2_alg».proof.Proof.KReg1
import proofs.«169057_j40063454937539_2_alg».proof.Proof.KReg2
import Idealize.ShloMosaic.Lib.StableHlo.Run

set_option maxRecDepth 16384

noncomputable section

namespace Cert.KernelIdeal.KHost

open Idealize.ShloMosaic Idealize.ShloMosaic.ValueIdx Idealize.ShloMosaic.TcCoe Idealize.SL.Sem Idealize.ShloMosaic.StableHlo
open Cert.KernelIdeal Cert.KernelIdeal.Gen

/-- The contents of a buffer of shape S and element type e, at the exact values. -/
abbrev C (S : Shape) (e : EltTy) := (⟨S, e⟩ : BufTy).Contents (Elt Ideal)

/-- The source-node vector: row 0 of the edge list. -/
def srcVec (ei : C S2x3200000 .i32) : C S3200000 .i32 :=
  shapeCast S3200000 (extractStridedSlice S1x3200000 ![0, 0] ei Facts₀.slices_S2x3200000_S1x3200000_0_0) Facts₀.shapeCasts_S1x3200000_S3200000
/-- The destination-node vector: row 1 of the edge list. -/
def dstVec (ei : C S2x3200000 .i32) : C S3200000 .i32 :=
  shapeCast S3200000 (extractStridedSlice S1x3200000 ![1, 0] ei Facts₀.slices_S2x3200000_S1x3200000_1_0) Facts₀.shapeCasts_S1x3200000_S3200000

/-- The aggregation of 64-wide features: rows gathered at the (wrapped) source nodes, summed into zeros at the destination nodes. -/
def agg64 (h : C S100000x64 .f32) (s d : C S3200000 .i32) : C S100000x64 .f32 :=
  Host.scatterAdd (F := Ideal) scatter_S100000x64_S3200000x1_S3200000x64_1_0_0_1
    (broadcastInDim S100000x64 ![] Facts₀.bcast_S_S100000x64 (constant (F := Ideal) S_ .f32 0x00000000#32))
    (broadcastInDim S3200000x1 ![0] Facts₀.bcast_S3200000_S3200000x1_0 d)
    (Host.gather gather_S100000x64_S3200000x1_S3200000x64_1_0_n_n_0_1_164 h
      (broadcastInDim S3200000x1 ![0] Facts₀.bcast_S3200000_S3200000x1_0
        (select (cmpi .slt s (broadcastInDim S3200000 ![] Facts₀.bcast_S_S3200000 (constantI S_ 32 0#32)))
          (addi s (broadcastInDim S3200000 ![] Facts₀.bcast_S_S3200000 (constantI S_ 32 100000#32))) s)))

/-- The same of 40-wide features. -/
def agg40 (h : C S100000x40 .f32) (s d : C S3200000 .i32) : C S100000x40 .f32 :=
  Host.scatterAdd (F := Ideal) scatter_S100000x40_S3200000x1_S3200000x40_1_0_0_1
    (broadcastInDim S100000x40 ![] Facts₀.bcast_S_S100000x40 (constant (F := Ideal) S_ .f32 0x00000000#32))
    (broadcastInDim S3200000x1 ![0] Facts₀.bcast_S3200000_S3200000x1_0 d)
    (Host.gather gather_S100000x40_S3200000x1_S3200000x40_1_0_n_n_0_1_140 h
      (broadcastInDim S3200000x1 ![0] Facts₀.bcast_S3200000_S3200000x1_0
        (select (cmpi .slt s (broadcastInDim S3200000 ![] Facts₀.bcast_S_S3200000 (constantI S_ 32 0#32)))
          (addi s (broadcastInDim S3200000 ![] Facts₀.bcast_S_S3200000 (constantI S_ 32 100000#32))) s)))

variable (m : (ℓ : Loc nD τ sig) → Buf (Elt Ideal) ℓ) (ρ : Dev nD → PrngReg)

/-! ## Before the first launch -/

theorem V1_arg0 (c : Dev nD) : V1 m ρ c main_arg0 = m ((c : Thread nD τ).loc main_arg0) := by
  show StableHlo.after hostOps0 (W0 m ρ c) (Proc.devRef .tc main_arg0) = _
  after_results <;> rfl
theorem V1_arg2 (c : Dev nD) : V1 m ρ c main_arg2 = m ((c : Thread nD τ).loc main_arg2) := by
  show StableHlo.after hostOps0 (W0 m ρ c) (Proc.devRef .tc main_arg2) = _
  after_results <;> rfl
theorem V1_v4 (c : Dev nD) : V1 m ρ c main_v4 = shapeCast S1x64 (m ((c : Thread nD τ).loc main_arg3)) Facts₀.shapeCasts_S64_S1x64 := by
  show StableHlo.after hostOps0 (W0 m ρ c) (Proc.devRef .tc main_v4) = _
  after_results <;> rfl
theorem W1_v1 (c : Dev nD) : W1 m ρ c (Proc.devRef .tc main_v1) = srcVec (m ((c : Thread nD τ).loc main_arg1)) := by
  show StableHlo.after hostOps0 (W0 m ρ c) (Proc.devRef .tc main_v1) = _
  after_results <;> rfl
theorem W1_v3 (c : Dev nD) : W1 m ρ c (Proc.devRef .tc main_v3) = dstVec (m ((c : Thread nD τ).loc main_arg1)) := by
  show StableHlo.after hostOps0 (W0 m ρ c) (Proc.devRef .tc main_v3) = _
  after_results <;> rfl
theorem W1_arg4 (c : Dev nD) : W1 m ρ c (Proc.devRef .tc main_arg4) = m ((c : Thread nD τ).loc main_arg4) := by
  show StableHlo.after hostOps0 (W0 m ρ c) (Proc.devRef .tc main_arg4) = _
  after_results <;> rfl
theorem W1_arg5 (c : Dev nD) : W1 m ρ c (Proc.devRef .tc main_arg5) = m ((c : Thread nD τ).loc main_arg5) := by
  show StableHlo.after hostOps0 (W0 m ρ c) (Proc.devRef .tc main_arg5) = _
  after_results <;> rfl

/-! ## After the first launch -/

theorem W2_v5 (c : Dev nD) : W2 m ρ c (Proc.devRef .tc main_v5) = KReg0.G (V1 m ρ) c :=
  (W2_arr m ρ c 3).trans (KReg0.final (V1 m ρ) c)
theorem W2_v1 (c : Dev nD) : W2 m ρ c (Proc.devRef .tc main_v1) = srcVec (m ((c : Thread nD τ).loc main_arg1)) :=
  (W2_of_ne m ρ c main_v1 (by decide)).trans (W1_v1 m ρ c)
theorem W2_v3 (c : Dev nD) : W2 m ρ c (Proc.devRef .tc main_v3) = dstVec (m ((c : Thread nD τ).loc main_arg1)) :=
  (W2_of_ne m ρ c main_v3 (by decide)).trans (W1_v3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)

/-! ## Before the second launch -/

theorem V3_v15 (c : Dev nD) : V3 m ρ c main_v15
    = agg64 (W2 m ρ c (Proc.devRef .tc main_v5)) (W2 m ρ c (Proc.devRef .tc main_v1)) (W2 m ρ c (Proc.devRef .tc main_v3)) := by
  show StableHlo.after hostOps1 (W2 m ρ c) (Proc.devRef .tc main_v15) = _
  unfold agg64
  after_results <;> rfl
theorem V3_arg4 (c : Dev nD) : V3 m ρ c main_arg4 = W2 m ρ c (Proc.devRef .tc main_arg4) := by
  show StableHlo.after hostOps1 (W2 m ρ c) (Proc.devRef .tc main_arg4) = _
  after_results <;> rfl
theorem V3_v16 (c : Dev nD) : V3 m ρ c main_v16 = shapeCast S1x40 (W2 m ρ c (Proc.devRef .tc main_arg5)) Facts₀.shapeCasts_S40_S1x40 := by
  show StableHlo.after hostOps1 (W2 m ρ c) (Proc.devRef .tc main_v16) = _
  after_results <;> rfl
theorem W3_v1 (c : Dev nD) : W3 m ρ c (Proc.devRef .tc main_v1) = W2 m ρ c (Proc.devRef .tc main_v1) := by
  show StableHlo.after hostOps1 (W2 m ρ c) (Proc.devRef .tc main_v1) = _
  after_results <;> rfl
theorem W3_v3 (c : Dev nD) : W3 m ρ c (Proc.devRef .tc main_v3) = W2 m ρ c (Proc.devRef .tc main_v3) := by
  show StableHlo.after hostOps1 (W2 m ρ c) (Proc.devRef .tc main_v3) = _
  after_results <;> rfl

/-! ## After the second launch, before the third -/

theorem W4_v17 (c : Dev nD) : W4 m ρ c (Proc.devRef .tc main_v17) = KReg1.G (V3 m ρ) c :=
  (W4_arr m ρ c 3).trans (KReg1.final (V3 m ρ) c)
theorem W4_v1 (c : Dev nD) : W4 m ρ c (Proc.devRef .tc main_v1) = srcVec (m ((c : Thread nD τ).loc main_arg1)) :=
  (W4_of_ne m ρ c main_v1 (by decide)).trans ((W3_v1 m ρ c).trans (W2_v1 m ρ c))
theorem W4_v3 (c : Dev nD) : W4 m ρ c (Proc.devRef .tc main_v3) = dstVec (m ((c : Thread nD τ).loc main_arg1)) :=
  (W4_of_ne m ρ c main_v3 (by decide)).trans ((W3_v3 m ρ c).trans (W2_v3 m ρ c))
theorem V5_v27 (c : Dev nD) : V5 m ρ c main_v27
    = agg40 (W4 m ρ c (Proc.devRef .tc main_v17)) (W4 m ρ c (Proc.devRef .tc main_v1)) (W4 m ρ c (Proc.devRef .tc main_v3)) := by
  show StableHlo.after hostOps2 (W4 m ρ c) (Proc.devRef .tc main_v27) = _
  unfold agg40
  after_results <;> rfl

/-! ## After the third launch -/

theorem W6_v28 (c : Dev nD) : W6 m ρ c (Proc.devRef .tc main_v28) = KReg2.G (V5 m ρ) c :=
  (W6_arr m ρ c 1).trans (KReg2.final (V5 m ρ) c)

/-! ## The result as a function of the arguments -/

/-- The first dense layer of the arguments. -/
def lin1 (x : C S100000x512 .f32) (w : C S512x64 .f32) (b : C S64 .f32) : C S100000x64 .f32 :=
  Cert.Spec.dense (n := 100000) (k := 512) (d := 64) x w (fun q => shapeCast S1x64 b Facts₀.shapeCasts_S64_S1x64 (ix2 (0 : Fin 1) q))

/-- The second dense layer, over the unit of its input. -/
def lin2 (h : C S100000x64 .f32) (w : C S64x40 .f32) (b : C S40 .f32) : C S100000x40 .f32 :=
  Cert.Spec.dense (n := 100000) (k := 64) (d := 40) (fun j => Cert.Spec.elu (h j)) w (fun q => shapeCast S1x40 b Facts₀.shapeCasts_S40_S1x40 (ix2 (0 : Fin 1) q))

/-- The whole network: dense, aggregate, unit and dense, aggregate, log-softmax. -/
def out (x : C S100000x512 .f32) (ei : C S2x3200000 .i32) (w1 : C S512x64 .f32) (b1 : C S64 .f32) (w2 : C S64x40 .f32) (b2 : C S40 .f32) :
    C S100000x40 .f32 :=
  Cert.Spec.logSoftmax (n := 100000) (d := 40)
    (agg40 (lin2 (agg64 (lin1 x w1 b1) (srcVec ei) (dstVec ei)) w2 b2) (srcVec ei) (dstVec ei))

/-- The result buffer's last contents are that function of the six arguments as launched. -/
theorem W6_out (c : Dev nD) : W6 m ρ c (Proc.devRef .tc main_v28)
    = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [W6_v28]
  unfold KReg2.G
  rw [V5_v27, W4_v17, W4_v1, W4_v3]
  unfold KReg1.G
  rw [V3_v15, V3_arg4, V3_v16, W2_v5, W2_v1, W2_v3, W2_arg4, W2_arg5]
  unfold KReg0.G
  rw [V1_arg0, V1_arg2, V1_v4]
  rfl

end Cert.KernelIdeal.KHost

end
-- ==== Proof.RefRun.lean ====
/-
  The reference program's run, read back. The reference is a two-layer graph network: a dense layer,
  a gather of rows along the edges' sources summed into the edges' targets, the exponential-linear unit,
  a second dense layer, the same aggregation, and a row-wise log-softmax. Its 72 host operations are
  listed in order (the outlined functions' operations at their call sites, over each call's own buffers);
  the program is that straight line, and the buffer of the result then holds the composition of six
  stage functions of the arguments' launch contents, the arguments unchanged.
-/
import proofs.«169057_j40063454937539_2_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The six stages, each the program's own composed term -/

/-- The first dense layer: the contraction of the input's columns against the weights' rows, plus the bias
    broadcast along the rows. -/
def lin1 (x : (⟨S100000x512, .f32⟩ : BufTy).Contents (Elt F)) (w : (⟨S512x64, .f32⟩ : BufTy).Contents (Elt F)) (b : (⟨S64, .f32⟩ : BufTy).Contents (Elt F)) : (⟨S100000x64, .f32⟩ : BufTy).Contents (Elt F) :=
  addf (Host.dotGeneral dot_S100000x512_S512x64_S100000x64_1_0_0_1_n_n none x w)
    (broadcastInDim S100000x64 ![0, 1] bcast_S1x64_S100000x64_0_1 (broadcastInDim S1x64 ![1] bcast_S64_S1x64_1 b))

/-- The edges' sources: row 0 of the edge table as a vector. -/
def srcIdx (ei : (⟨S2x3200000, .i32⟩ : BufTy).Contents (Elt F)) : (⟨S3200000, .i32⟩ : BufTy).Contents (Elt F) :=
  shapeCast S3200000 (extractStridedSlice S1x3200000 ![0, 0] ei slices_S2x3200000_S1x3200000_0_0) shapeCasts_S1x3200000_S3200000

/-- The edges' targets: row 1 of the edge table as a vector. -/
def dstIdx (ei : (⟨S2x3200000, .i32⟩ : BufTy).Contents (Elt F)) : (⟨S3200000, .i32⟩ : BufTy).Contents (Elt F) :=
  shapeCast S3200000 (extractStridedSlice S1x3200000 ![1, 0] ei slices_S2x3200000_S1x3200000_1_0) shapeCasts_S1x3200000_S3200000

/-- The sources with a negative index counted from the end: where the index is below zero, the index plus the
    number of rows. -/
def wrapIdx (ei : (⟨S2x3200000, .i32⟩ : BufTy).Contents (Elt F)) : (⟨S3200000, .i32⟩ : BufTy).Contents (Elt F) :=
  select (cmpi .slt (srcIdx ei) (broadcastInDim S3200000 ![] bcast_S_S3200000 (constantI S_ 32 0#32)))
    (addi (srcIdx ei) (broadcastInDim S3200000 ![] bcast_S_S3200000 (constantI S_ 32 100000#32)))
    (srcIdx ei)

/-- The aggregation at width 64: the rows of `h` gathered at the edges' sources, summed into zeros at the
    edges' targets. -/
def agg64 (h : (⟨S100000x64, .f32⟩ : BufTy).Contents (Elt F)) (ei : (⟨S2x3200000, .i32⟩ : BufTy).Contents (Elt F)) : (⟨S100000x64, .f32⟩ : BufTy).Contents (Elt F) :=
  Host.scatterAdd scatter_S100000x64_S3200000x1_S3200000x64_1_0_0_1
    (broadcastInDim S100000x64 ![] bcast_S_S100000x64 (constant S_ .f32 0x00000000#32))
    (broadcastInDim S3200000x1 ![0] bcast_S3200000_S3200000x1_0 (dstIdx ei))
    (Host.gather gather_S100000x64_S3200000x1_S3200000x64_1_0_n_n_0_1_164 h
      (broadcastInDim S3200000x1 ![0] bcast_S3200000_S3200000x1_0 (wrapIdx ei)))

/-- The exponential-linear unit, entry by entry: where the entry is above zero the entry, elsewhere one times
    the exponential less one of (zero where the entry is above zero, the entry elsewhere). -/
def elu (h : (⟨S100000x64, .f32⟩ : BufTy).Contents (Elt F)) : (⟨S100000x64, .f32⟩ : BufTy).Contents (Elt F) :=
  select (cmpf .ogt h (broadcastInDim S100000x64 ![] bcast_S_S100000x64 (constant S_ .f32 0x00000000#32))) h
    (mulf (broadcastInDim S100000x64 ![] bcast_S_S100000x64 (constant S_ .f32 0x3F800000#32))
      (Host.expm1 (select (cmpf .ogt h (broadcastInDim S100000x64 ![] bcast_S_S100000x64 (constant S_ .f32 0x00000000#32)))
        (broadcastInDim S100000x64 ![] bcast_S_S100000x64 (id (constant S_ .f32 0x00000000#32))) h)))

/-- The second dense layer. -/
def lin2 (h : (⟨S100000x64, .f32⟩ : BufTy).Contents (Elt F)) (w : (⟨S64x40, .f32⟩ : BufTy).Contents (Elt F)) (b : (⟨S40, .f32⟩ : BufTy).Contents (Elt F)) : (⟨S100000x40, .f32⟩ : BufTy).Contents (Elt F) :=
  addf (Host.dotGeneral dot_S100000x64_S64x40_S100000x40_1_0_0_1_n_n none h w)
    (broadcastInDim S100000x40 ![0, 1] bcast_S1x40_S100000x40_0_1 (broadcastInDim S1x40 ![1] bcast_S40_S1x40_1 b))

/-- The aggregation at width 40. -/
def agg40 (h : (⟨S100000x40, .f32⟩ : BufTy).Contents (Elt F)) (ei : (⟨S2x3200000, .i32⟩ : BufTy).Contents (Elt F)) : (⟨S100000x40, .f32⟩ : BufTy).Contents (Elt F) :=
  Host.scatterAdd scatter_S100000x40_S3200000x1_S3200000x40_1_0_0_1
    (broadcastInDim S100000x40 ![] bcast_S_S100000x40 (constant S_ .f32 0x00000000#32))
    (broadcastInDim S3200000x1 ![0] bcast_S3200000_S3200000x1_0 (dstIdx ei))
    (Host.gather gather_S100000x40_S3200000x1_S3200000x40_1_0_n_n_0_1_140 h
      (broadcastInDim S3200000x1 ![0] bcast_S3200000_S3200000x1_0 (wrapIdx ei)))

/-- A row's maximum, as the program computes it: the reduction by maximum from the pattern of −∞, and the
    maximum of that pattern with it. -/
def lsmMax (x : (⟨S100000x40, .f32⟩ : BufTy).Contents (Elt F)) : (⟨S100000, .f32⟩ : BufTy).Contents (Elt F) :=
  maximumf (broadcastInDim S100000 ![] bcast_S_S100000 (constant S_ .f32 0xFF800000#32))
    (Host.reduce FloatOps.maximumf x (constant S_ .f32 0xFF800000#32) reducesTo_S100000x40_S100000_d1 h_S_)

/-- The entries less their row's maximum. -/
def lsmShift (x : (⟨S100000x40, .f32⟩ : BufTy).Contents (Elt F)) : (⟨S100000x40, .f32⟩ : BufTy).Contents (Elt F) :=
  subf x (broadcastInDim S100000x40 ![0, 1] bcast_S100000x1_S100000x40_0_1
    (broadcastInDim S100000x1 ![0] bcast_S100000_S100000x1_0 (lsmMax x)))

/-- The row-wise log-softmax: the shifted entries less the logarithm of their row's sum of exponentials. -/
def lsm (x : (⟨S100000x40, .f32⟩ : BufTy).Contents (Elt F)) : (⟨S100000x40, .f32⟩ : BufTy).Contents (Elt F) :=
  subf (lsmShift x) (broadcastInDim S100000x40 ![0, 1] bcast_S100000x1_S100000x40_0_1
    (Host.log (broadcastInDim S100000x1 ![0] bcast_S100000_S100000x1_0
      (Host.reduceAdd (Host.exp (lsmShift x)) (constant S_ .f32 0x00000000#32) reducesTo_S100000x40_S100000_d1 h_S_))))

/-- The reference's result as a function of its six arguments. -/
def refOut (x : (⟨S100000x512, .f32⟩ : BufTy).Contents (Elt F)) (ei : (⟨S2x3200000, .i32⟩ : BufTy).Contents (Elt F))
    (w1 : (⟨S512x64, .f32⟩ : BufTy).Contents (Elt F)) (b1 : (⟨S64, .f32⟩ : BufTy).Contents (Elt F)) (w2 : (⟨S64x40, .f32⟩ : BufTy).Contents (Elt F)) (b2 : (⟨S40, .f32⟩ : BufTy).Contents (Elt F)) : (⟨S100000x40, .f32⟩ : BufTy).Contents (Elt F) :=
  lsm (agg40 (lin2 (elu (agg64 (lin1 x w1 b1) ei)) w2 b2) ei)

/-! ## The operations, stage by stage -/

/-- A reference among a list is, as a device buffer, among the list's device buffers. -/
theorem sub_of_mem {Wl : List (Ref sig .tc)} {y : Ref sig .tc} (hy : y ∈ Wl) :
    ({Proc.devRef (τ := τ) .tc y} : Finset (DevRef τ sig)) ⊆ (Wl.map (Proc.devRef (τ := τ) .tc)).toFinset :=
  Finset.singleton_subset_iff.mpr (List.mem_toFinset.mpr (List.mem_map.mpr ⟨y, hy, rfl⟩))

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The first dense layer's four operations. -/
abbrev opsA1 : List (HloOp τ sig (Elt F)) :=
  [ binary main_arg0 main_arg2 main_v0 ((fun l r => Host.dotGeneral dot_S100000x512_S512x64_S100000x64_1_0_0_1_n_n none l r) : (⟨S100000x512, .f32⟩ : BufTy).Contents (Elt F) → (⟨S512x64, .f32⟩ : BufTy).Contents (Elt F) → (⟨S100000x64, .f32⟩ : BufTy).Contents (Elt F)),
    unary main_arg3 main_v1 (broadcastInDim S1x64 ![1] bcast_S64_S1x64_1 : (⟨S64, .f32⟩ : BufTy).Contents (Elt F) → (⟨S1x64, .f32⟩ : BufTy).Contents (Elt F)),
    unary main_v1 main_v2 (broadcastInDim S100000x64 ![0, 1] bcast_S1x64_S100000x64_0_1 : (⟨S1x64, .f32⟩ : BufTy).Contents (Elt F) → (⟨S100000x64, .f32⟩ : BufTy).Contents (Elt F)),
    binary main_v0 main_v2 main_v3 (addf : (⟨S100000x64, .f32⟩ : BufTy).Contents (Elt F) → (⟨S100000x64, .f32⟩ : BufTy).Contents (Elt F) → (⟨S100000x64, .f32⟩ : BufTy).Contents (Elt F)) ]

/-- The references those operations write, in order. -/
abbrev wrA1 : List (Ref sig .tc) := [main_v0, main_v1, main_v2, main_v3]

theorem wrA1_sub : (opsA1 : List (HloOp τ sig (Elt F))).Forall fun op => op.writes ⊆ (wrA1.map (Proc.devRef (τ := τ) .tc)).toFinset :=
  ⟨sub_of_mem (y := main_v0) (by decide), sub_of_mem (y := main_v1) (by decide), sub_of_mem (y := main_v2) (by decide), sub_of_mem (y := main_v3) (by decide)⟩

/-- The first aggregation's seventeen operations. -/
abbrev opsG1 : List (HloOp τ sig (Elt F)) :=
  [ unary main_arg1 main_v4 ((extractStridedSlice S1x3200000 ![0, 0] · slices_S2x3200000_S1x3200000_0_0) : (⟨S2x3200000, .i32⟩ : BufTy).Contents (Elt F) → (⟨S1x3200000, .i32⟩ : BufTy).Contents (Elt F)),
    reshape main_v4 main_v5 rfl shapeCasts_S1x3200000_S3200000,
    unary main_arg1 main_v6 ((extractStridedSlice S1x3200000 ![1, 0] · slices_S2x3200000_S1x3200000_1_0) : (⟨S2x3200000, .i32⟩ : BufTy).Contents (Elt F) → (⟨S1x3200000, .i32⟩ : BufTy).Contents (Elt F)),
    reshape main_v6 main_v7 rfl shapeCasts_S1x3200000_S3200000,
    nullary main_c (constantI S_ 32 0#32),
    unary main_c main_v8 (broadcastInDim S3200000 ![] bcast_S_S3200000 : (⟨S_, .i32⟩ : BufTy).Contents (Elt F) → (⟨S3200000, .i32⟩ : BufTy).Contents (Elt F)),
    binary main_v5 main_v8 main_v9 (cmpi .slt : (⟨S3200000, .i32⟩ : BufTy).Contents (Elt F) → (⟨S3200000, .i32⟩ : BufTy).Contents (Elt F) → (⟨S3200000, .i1⟩ : BufTy).Contents (Elt F)),
    nullary main_c_0 (constantI S_ 32 100000#32),
    unary main_c_0 main_v10 (broadcastInDim S3200000 ![] bcast_S_S3200000 : (⟨S_, .i32⟩ : BufTy).Contents (Elt F) → (⟨S3200000, .i32⟩ : BufTy).Contents (Elt F)),
    binary main_v5 main_v10 main_v11 (addi : (⟨S3200000, .i32⟩ : BufTy).Contents (Elt F) → (⟨S3200000, .i32⟩ : BufTy).Contents (Elt F) → (⟨S3200000, .i32⟩ : BufTy).Contents (Elt F)),
    ternary main_v9 main_v11 main_v5 main_v12 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v12 main_v13 (broadcastInDim S3200000x1 ![0] bcast_S3200000_S3200000x1_0 : (⟨S3200000, .i32⟩ : BufTy).Contents (Elt F) → (⟨S3200000x1, .i32⟩ : BufTy).Contents (Elt F)),
    binary main_v3 main_v13 main_v14 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    nullary main_cst (constant S_ .f32 0x00000000#32),
    unary main_cst main_v15 (broadcastInDim S100000x64 ![] bcast_S_S100000x64 : (⟨S_, .f32⟩ : BufTy).Contents (Elt F) → (⟨S100000x64, .f32⟩ : BufTy).Contents (Elt F)),
    unary main_v7 main_v16 (broadcastInDim S3200000x1 ![0] bcast_S3200000_S3200000x1_0 : (⟨S3200000, .i32⟩ : BufTy).Contents (Elt F) → (⟨S3200000x1, .i32⟩ : BufTy).Contents (Elt F)),
    ternary main_v15 main_v16 main_v14 main_v17 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)) ]

/-- The references those operations write, in order. -/
abbrev wrG1 : List (Ref sig .tc) := [main_v4, main_v5, main_v6, main_v7, main_c, main_v8, main_v9, main_c_0, main_v10, main_v11, main_v12, main_v13, main_v14, main_cst, main_v15, main_v16, main_v17]

theorem wrG1_sub : (opsG1 : List (HloOp τ sig (Elt F))).Forall fun op => op.writes ⊆ (wrG1.map (Proc.devRef (τ := τ) .tc)).toFinset :=
  ⟨sub_of_mem (y := main_v4) (by decide), sub_of_mem (y := main_v5) (by decide), sub_of_mem (y := main_v6) (by decide), sub_of_mem (y := main_v7) (by decide), sub_of_mem (y := main_c) (by decide), sub_of_mem (y := main_v8) (by decide), sub_of_mem (y := main_v9) (by decide), sub_of_mem (y := main_c_0) (by decide), sub_of_mem (y := main_v10) (by decide), sub_of_mem (y := main_v11) (by decide), sub_of_mem (y := main_v12) (by decide), sub_of_mem (y := main_v13) (by decide), sub_of_mem (y := main_v14) (by decide), sub_of_mem (y := main_cst) (by decide), sub_of_mem (y := main_v15) (by decide), sub_of_mem (y := main_v16) (by decide), sub_of_mem (y := main_v17) (by decide)⟩

/-- The exponential-linear unit's fifteen operations, over its call's buffers. -/
abbrev opsE : List (HloOp τ sig (Elt F)) :=
  [ TRef.nullary main_call0.cst (constant S_ .f32 0x00000000#32),
    TRef.unary main_call0.cst main_call0.v0 (broadcastInDim S100000x64 ![] bcast_S_S100000x64),
    TRef.binary (.of main_v17 : TRef sig ⟨S100000x64, .f32⟩) main_call0.v0 main_call0.v1 (cmpf .ogt),
    TRef.nullary main_call0.cst_0 (constant S_ .f32 0x00000000#32),
    TRef.unary main_call0.cst_0 main_call0.v2 (broadcastInDim S100000x64 ![] bcast_S_S100000x64),
    TRef.binary (.of main_v17 : TRef sig ⟨S100000x64, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S100000x64 ![] bcast_S_S100000x64),
    TRef.ternary main_call0.v3 main_call0.call0.v1 (.of main_v17 : TRef sig ⟨S100000x64, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S100000x64 ![] bcast_S_S100000x64),
    TRef.binary main_call0.v6 main_call0.v5 main_call0.v7 mulf,
    TRef.ternary main_call0.v1 (.of main_v17 : TRef sig ⟨S100000x64, .f32⟩) main_call0.v7 main_call0.call1.v0 select ]

/-- The references those operations write, in order. -/
abbrev wrE : List (Ref sig .tc) := [main_call0_cst, main_call0_v0, main_call0_v1, main_call0_cst_0, main_call0_v2, main_call0_v3, main_call0_cst_1, main_call0_call0_v0, main_call0_call0_v1, main_call0_v4, main_call0_v5, main_call0_cst_2, main_call0_v6, main_call0_v7, main_v18]

theorem wrE_sub : (opsE : List (HloOp τ sig (Elt F))).Forall fun op => op.writes ⊆ (wrE.map (Proc.devRef (τ := τ) .tc)).toFinset :=
  ⟨sub_of_mem (y := main_call0_cst) (by decide), sub_of_mem (y := main_call0_v0) (by decide), sub_of_mem (y := main_call0_v1) (by decide), sub_of_mem (y := main_call0_cst_0) (by decide), sub_of_mem (y := main_call0_v2) (by decide), sub_of_mem (y := main_call0_v3) (by decide), sub_of_mem (y := main_call0_cst_1) (by decide), sub_of_mem (y := main_call0_call0_v0) (by decide), sub_of_mem (y := main_call0_call0_v1) (by decide), sub_of_mem (y := main_call0_v4) (by decide), sub_of_mem (y := main_call0_v5) (by decide), sub_of_mem (y := main_call0_cst_2) (by decide), sub_of_mem (y := main_call0_v6) (by decide), sub_of_mem (y := main_call0_v7) (by decide), sub_of_mem (y := main_v18) (by decide)⟩

/-- The second dense layer's four operations. -/
abbrev opsA2 : List (HloOp τ sig (Elt F)) :=
  [ binary main_v18 main_arg4 main_v19 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    unary main_arg5 main_v20 (broadcastInDim S1x40 ![1] bcast_S40_S1x40_1 : (⟨S40, .f32⟩ : BufTy).Contents (Elt F) → (⟨S1x40, .f32⟩ : BufTy).Contents (Elt F)),
    unary main_v20 main_v21 (broadcastInDim S100000x40 ![0, 1] bcast_S1x40_S100000x40_0_1 : (⟨S1x40, .f32⟩ : BufTy).Contents (Elt F) → (⟨S100000x40, .f32⟩ : BufTy).Contents (Elt F)),
    binary main_v19 main_v21 main_v22 (addf : (⟨S100000x40, .f32⟩ : BufTy).Contents (Elt F) → (⟨S100000x40, .f32⟩ : BufTy).Contents (Elt F) → (⟨S100000x40, .f32⟩ : BufTy).Contents (Elt F)) ]

/-- The references those operations write, in order. -/
abbrev wrA2 : List (Ref sig .tc) := [main_v19, main_v20, main_v21, main_v22]

theorem wrA2_sub : (opsA2 : List (HloOp τ sig (Elt F))).Forall fun op => op.writes ⊆ (wrA2.map (Proc.devRef (τ := τ) .tc)).toFinset :=
  ⟨sub_of_mem (y := main_v19) (by decide), sub_of_mem (y := main_v20) (by decide), sub_of_mem (y := main_v21) (by decide), sub_of_mem (y := main_v22) (by decide)⟩

/-- The second aggregation's seventeen operations. -/
abbrev opsG2 : List (HloOp τ sig (Elt F)) :=
  [ unary main_arg1 main_v23 ((extractStridedSlice S1x3200000 ![0, 0] · slices_S2x3200000_S1x3200000_0_0) : (⟨S2x3200000, .i32⟩ : BufTy).Contents (Elt F) → (⟨S1x3200000, .i32⟩ : BufTy).Contents (Elt F)),
    reshape main_v23 main_v24 rfl shapeCasts_S1x3200000_S3200000,
    unary main_arg1 main_v25 ((extractStridedSlice S1x3200000 ![1, 0] · slices_S2x3200000_S1x3200000_1_0) : (⟨S2x3200000, .i32⟩ : BufTy).Contents (Elt F) → (⟨S1x3200000, .i32⟩ : BufTy).Contents (Elt F)),
    reshape main_v25 main_v26 rfl shapeCasts_S1x3200000_S3200000,
    nullary main_c_1 (constantI S_ 32 0#32),
    unary main_c_1 main_v27 (broadcastInDim S3200000 ![] bcast_S_S3200000 : (⟨S_, .i32⟩ : BufTy).Contents (Elt F) → (⟨S3200000, .i32⟩ : BufTy).Contents (Elt F)),
    binary main_v24 main_v27 main_v28 (cmpi .slt : (⟨S3200000, .i32⟩ : BufTy).Contents (Elt F) → (⟨S3200000, .i32⟩ : BufTy).Contents (Elt F) → (⟨S3200000, .i1⟩ : BufTy).Contents (Elt F)),
    nullary main_c_2 (constantI S_ 32 100000#32),
    unary main_c_2 main_v29 (broadcastInDim S3200000 ![] bcast_S_S3200000 : (⟨S_, .i32⟩ : BufTy).Contents (Elt F) → (⟨S3200000, .i32⟩ : BufTy).Contents (Elt F)),
    binary main_v24 main_v29 main_v30 (addi : (⟨S3200000, .i32⟩ : BufTy).Contents (Elt F) → (⟨S3200000, .i32⟩ : BufTy).Contents (Elt F) → (⟨S3200000, .i32⟩ : BufTy).Contents (Elt F)),
    ternary main_v28 main_v30 main_v24 main_v31 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v31 main_v32 (broadcastInDim S3200000x1 ![0] bcast_S3200000_S3200000x1_0 : (⟨S3200000, .i32⟩ : BufTy).Contents (Elt F) → (⟨S3200000x1, .i32⟩ : BufTy).Contents (Elt F)),
    binary main_v22 main_v32 main_v33 ((fun x i => Host.gather gather_S100000x40_S3200000x1_S3200000x40_1_0_n_n_0_1_140 x i) : (⟨S100000x40, .f32⟩ : BufTy).Contents (Elt F) → (⟨S3200000x1, .i32⟩ : BufTy).Contents (Elt F) → (⟨S3200000x40, .f32⟩ : BufTy).Contents (Elt F)),
    nullary main_cst_3 (constant S_ .f32 0x00000000#32),
    unary main_cst_3 main_v34 (broadcastInDim S100000x40 ![] bcast_S_S100000x40 : (⟨S_, .f32⟩ : BufTy).Contents (Elt F) → (⟨S100000x40, .f32⟩ : BufTy).Contents (Elt F)),
    unary main_v26 main_v35 (broadcastInDim S3200000x1 ![0] bcast_S3200000_S3200000x1_0 : (⟨S3200000, .i32⟩ : BufTy).Contents (Elt F) → (⟨S3200000x1, .i32⟩ : BufTy).Contents (Elt F)),
    ternary main_v34 main_v35 main_v33 main_v36 ((fun x i u => Host.scatterAdd scatter_S100000x40_S3200000x1_S3200000x40_1_0_0_1 x i u) : (⟨S100000x40, .f32⟩ : BufTy).Contents (Elt F) → (⟨S3200000x1, .i32⟩ : BufTy).Contents (Elt F) → (⟨S3200000x40, .f32⟩ : BufTy).Contents (Elt F) → (⟨S100000x40, .f32⟩ : BufTy).Contents (Elt F)) ]

/-- The references those operations write, in order. -/
abbrev wrG2 : List (Ref sig .tc) := [main_v23, main_v24, main_v25, main_v26, main_c_1, main_v27, main_v28, main_c_2, main_v29, main_v30, main_v31, main_v32, main_v33, main_cst_3, main_v34, main_v35, main_v36]

theorem wrG2_sub : (opsG2 : List (HloOp τ sig (Elt F))).Forall fun op => op.writes ⊆ (wrG2.map (Proc.devRef (τ := τ) .tc)).toFinset :=
  ⟨sub_of_mem (y := main_v23) (by decide), sub_of_mem (y := main_v24) (by decide), sub_of_mem (y := main_v25) (by decide), sub_of_mem (y := main_v26) (by decide), sub_of_mem (y := main_c_1) (by decide), sub_of_mem (y := main_v27) (by decide), sub_of_mem (y := main_v28) (by decide), sub_of_mem (y := main_c_2) (by decide), sub_of_mem (y := main_v29) (by decide), sub_of_mem (y := main_v30) (by decide), sub_of_mem (y := main_v31) (by decide), sub_of_mem (y := main_v32) (by decide), sub_of_mem (y := main_v33) (by decide), sub_of_mem (y := main_cst_3) (by decide), sub_of_mem (y := main_v34) (by decide), sub_of_mem (y := main_v35) (by decide), sub_of_mem (y := main_v36) (by decide)⟩

/-- The log-softmax's fifteen operations, over its call's buffers. -/
abbrev opsL : List (HloOp τ sig (Elt F)) :=
  [ TRef.nullary main_call1.cst (constant S_ .f32 0xFF800000#32),
    TRef.binary (.of main_v36 : TRef sig ⟨S100000x40, .f32⟩) main_call1.cst main_call1.v0 (fun x v => Host.reduce FloatOps.maximumf x v reducesTo_S100000x40_S100000_d1 h_S_),
    TRef.nullary main_call1.cst_0 (constant S_ .f32 0xFF800000#32),
    TRef.unary main_call1.cst_0 main_call1.v1 (broadcastInDim S100000 ![] bcast_S_S100000),
    TRef.binary main_call1.v1 main_call1.v0 main_call1.v2 maximumf,
    TRef.unary main_call1.v2 main_call1.v3 (broadcastInDim S100000x1 ![0] bcast_S100000_S100000x1_0),
    TRef.unary main_call1.v3 main_call1.v4 (broadcastInDim S100000x40 ![0, 1] bcast_S100000x1_S100000x40_0_1),
    TRef.binary (.of main_v36 : TRef sig ⟨S100000x40, .f32⟩) main_call1.v4 main_call1.v5 subf,
    TRef.unary main_call1.v5 main_call1.v6 Host.exp,
    TRef.nullary main_call1.cst_1 (constant S_ .f32 0x00000000#32),
    TRef.binary main_call1.v6 main_call1.cst_1 main_call1.v7 (fun x v => Host.reduceAdd x v reducesTo_S100000x40_S100000_d1 h_S_),
    TRef.unary main_call1.v7 main_call1.v8 (broadcastInDim S100000x1 ![0] bcast_S100000_S100000x1_0),
    TRef.unary main_call1.v8 main_call1.v9 Host.log,
    TRef.unary main_call1.v9 main_call1.v10 (broadcastInDim S100000x40 ![0, 1] bcast_S100000x1_S100000x40_0_1),
    TRef.binary main_call1.v5 main_call1.v10 main_call1.v11 subf ]

/-- The references those operations write, in order. -/
abbrev wrL : List (Ref sig .tc) := [main_call1_cst, main_call1_v0, main_call1_cst_0, main_call1_v1, main_call1_v2, main_call1_v3, main_call1_v4, main_call1_v5, main_call1_v6, main_call1_cst_1, main_call1_v7, main_call1_v8, main_call1_v9, main_call1_v10, main_v37]

theorem wrL_sub : (opsL : List (HloOp τ sig (Elt F))).Forall fun op => op.writes ⊆ (wrL.map (Proc.devRef (τ := τ) .tc)).toFinset :=
  ⟨sub_of_mem (y := main_call1_cst) (by decide), sub_of_mem (y := main_call1_v0) (by decide), sub_of_mem (y := main_call1_cst_0) (by decide), sub_of_mem (y := main_call1_v1) (by decide), sub_of_mem (y := main_call1_v2) (by decide), sub_of_mem (y := main_call1_v3) (by decide), sub_of_mem (y := main_call1_v4) (by decide), sub_of_mem (y := main_call1_v5) (by decide), sub_of_mem (y := main_call1_v6) (by decide), sub_of_mem (y := main_call1_cst_1) (by decide), sub_of_mem (y := main_call1_v7) (by decide), sub_of_mem (y := main_call1_v8) (by decide), sub_of_mem (y := main_call1_v9) (by decide), sub_of_mem (y := main_call1_v10) (by decide), sub_of_mem (y := main_v37) (by decide)⟩

/-! ## The program as the straight line of its operations -/

/-- The program's 72 operations in order: the six stages' one after the other (the outlined functions'
    operations at their call sites, over each call's own buffers). -/
abbrev ops : List (HloOp τ sig (Elt F)) :=
  [ binary main_arg0 main_arg2 main_v0 ((fun l r => Host.dotGeneral dot_S100000x512_S512x64_S100000x64_1_0_0_1_n_n none l r) : (⟨S100000x512, .f32⟩ : BufTy).Contents (Elt F) → (⟨S512x64, .f32⟩ : BufTy).Contents (Elt F) → (⟨S100000x64, .f32⟩ : BufTy).Contents (Elt F)),
    unary main_arg3 main_v1 (broadcastInDim S1x64 ![1] bcast_S64_S1x64_1 : (⟨S64, .f32⟩ : BufTy).Contents (Elt F) → (⟨S1x64, .f32⟩ : BufTy).Contents (Elt F)),
    unary main_v1 main_v2 (broadcastInDim S100000x64 ![0, 1] bcast_S1x64_S100000x64_0_1 : (⟨S1x64, .f32⟩ : BufTy).Contents (Elt F) → (⟨S100000x64, .f32⟩ : BufTy).Contents (Elt F)),
    binary main_v0 main_v2 main_v3 (addf : (⟨S100000x64, .f32⟩ : BufTy).Contents (Elt F) → (⟨S100000x64, .f32⟩ : BufTy).Contents (Elt F) → (⟨S100000x64, .f32⟩ : BufTy).Contents (Elt F)),
    unary main_arg1 main_v4 ((extractStridedSlice S1x3200000 ![0, 0] · slices_S2x3200000_S1x3200000_0_0) : (⟨S2x3200000, .i32⟩ : BufTy).Contents (Elt F) → (⟨S1x3200000, .i32⟩ : BufTy).Contents (Elt F)),
    reshape main_v4 main_v5 rfl shapeCasts_S1x3200000_S3200000,
    unary main_arg1 main_v6 ((extractStridedSlice S1x3200000 ![1, 0] · slices_S2x3200000_S1x3200000_1_0) : (⟨S2x3200000, .i32⟩ : BufTy).Contents (Elt F) → (⟨S1x3200000, .i32⟩ : BufTy).Contents (Elt F)),
    reshape main_v6 main_v7 rfl shapeCasts_S1x3200000_S3200000,
    nullary main_c (constantI S_ 32 0#32),
    unary main_c main_v8 (broadcastInDim S3200000 ![] bcast_S_S3200000 : (⟨S_, .i32⟩ : BufTy).Contents (Elt F) → (⟨S3200000, .i32⟩ : BufTy).Contents (Elt F)),
    binary main_v5 main_v8 main_v9 (cmpi .slt : (⟨S3200000, .i32⟩ : BufTy).Contents (Elt F) → (⟨S3200000, .i32⟩ : BufTy).Contents (Elt F) → (⟨S3200000, .i1⟩ : BufTy).Contents (Elt F)),
    nullary main_c_0 (constantI S_ 32 100000#32),
    unary main_c_0 main_v10 (broadcastInDim S3200000 ![] bcast_S_S3200000 : (⟨S_, .i32⟩ : BufTy).Contents (Elt F) → (⟨S3200000, .i32⟩ : BufTy).Contents (Elt F)),
    binary main_v5 main_v10 main_v11 (addi : (⟨S3200000, .i32⟩ : BufTy).Contents (Elt F) → (⟨S3200000, .i32⟩ : BufTy).Contents (Elt F) → (⟨S3200000, .i32⟩ : BufTy).Contents (Elt F)),
    ternary main_v9 main_v11 main_v5 main_v12 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v12 main_v13 (broadcastInDim S3200000x1 ![0] bcast_S3200000_S3200000x1_0 : (⟨S3200000, .i32⟩ : BufTy).Contents (Elt F) → (⟨S3200000x1, .i32⟩ : BufTy).Contents (Elt F)),
    binary main_v3 main_v13 main_v14 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    nullary main_cst (constant S_ .f32 0x00000000#32),
    unary main_cst main_v15 (broadcastInDim S100000x64 ![] bcast_S_S100000x64 : (⟨S_, .f32⟩ : BufTy).Contents (Elt F) → (⟨S100000x64, .f32⟩ : BufTy).Contents (Elt F)),
    unary main_v7 main_v16 (broadcastInDim S3200000x1 ![0] bcast_S3200000_S3200000x1_0 : (⟨S3200000, .i32⟩ : BufTy).Contents (Elt F) → (⟨S3200000x1, .i32⟩ : BufTy).Contents (Elt F)),
    ternary main_v15 main_v16 main_v14 main_v17 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    TRef.nullary main_call0.cst (constant S_ .f32 0x00000000#32),
    TRef.unary main_call0.cst main_call0.v0 (broadcastInDim S100000x64 ![] bcast_S_S100000x64),
    TRef.binary (.of main_v17 : TRef sig ⟨S100000x64, .f32⟩) main_call0.v0 main_call0.v1 (cmpf .ogt),
    TRef.nullary main_call0.cst_0 (constant S_ .f32 0x00000000#32),
    TRef.unary main_call0.cst_0 main_call0.v2 (broadcastInDim S100000x64 ![] bcast_S_S100000x64),
    TRef.binary (.of main_v17 : TRef sig ⟨S100000x64, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S100000x64 ![] bcast_S_S100000x64),
    TRef.ternary main_call0.v3 main_call0.call0.v1 (.of main_v17 : TRef sig ⟨S100000x64, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S100000x64 ![] bcast_S_S100000x64),
    TRef.binary main_call0.v6 main_call0.v5 main_call0.v7 mulf,
    TRef.ternary main_call0.v1 (.of main_v17 : TRef sig ⟨S100000x64, .f32⟩) main_call0.v7 main_call0.call1.v0 select,
    binary main_v18 main_arg4 main_v19 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    unary main_arg5 main_v20 (broadcastInDim S1x40 ![1] bcast_S40_S1x40_1 : (⟨S40, .f32⟩ : BufTy).Contents (Elt F) → (⟨S1x40, .f32⟩ : BufTy).Contents (Elt F)),
    unary main_v20 main_v21 (broadcastInDim S100000x40 ![0, 1] bcast_S1x40_S100000x40_0_1 : (⟨S1x40, .f32⟩ : BufTy).Contents (Elt F) → (⟨S100000x40, .f32⟩ : BufTy).Contents (Elt F)),
    binary main_v19 main_v21 main_v22 (addf : (⟨S100000x40, .f32⟩ : BufTy).Contents (Elt F) → (⟨S100000x40, .f32⟩ : BufTy).Contents (Elt F) → (⟨S100000x40, .f32⟩ : BufTy).Contents (Elt F)),
    unary main_arg1 main_v23 ((extractStridedSlice S1x3200000 ![0, 0] · slices_S2x3200000_S1x3200000_0_0) : (⟨S2x3200000, .i32⟩ : BufTy).Contents (Elt F) → (⟨S1x3200000, .i32⟩ : BufTy).Contents (Elt F)),
    reshape main_v23 main_v24 rfl shapeCasts_S1x3200000_S3200000,
    unary main_arg1 main_v25 ((extractStridedSlice S1x3200000 ![1, 0] · slices_S2x3200000_S1x3200000_1_0) : (⟨S2x3200000, .i32⟩ : BufTy).Contents (Elt F) → (⟨S1x3200000, .i32⟩ : BufTy).Contents (Elt F)),
    reshape main_v25 main_v26 rfl shapeCasts_S1x3200000_S3200000,
    nullary main_c_1 (constantI S_ 32 0#32),
    unary main_c_1 main_v27 (broadcastInDim S3200000 ![] bcast_S_S3200000 : (⟨S_, .i32⟩ : BufTy).Contents (Elt F) → (⟨S3200000, .i32⟩ : BufTy).Contents (Elt F)),
    binary main_v24 main_v27 main_v28 (cmpi .slt : (⟨S3200000, .i32⟩ : BufTy).Contents (Elt F) → (⟨S3200000, .i32⟩ : BufTy).Contents (Elt F) → (⟨S3200000, .i1⟩ : BufTy).Contents (Elt F)),
    nullary main_c_2 (constantI S_ 32 100000#32),
    unary main_c_2 main_v29 (broadcastInDim S3200000 ![] bcast_S_S3200000 : (⟨S_, .i32⟩ : BufTy).Contents (Elt F) → (⟨S3200000, .i32⟩ : BufTy).Contents (Elt F)),
    binary main_v24 main_v29 main_v30 (addi : (⟨S3200000, .i32⟩ : BufTy).Contents (Elt F) → (⟨S3200000, .i32⟩ : BufTy).Contents (Elt F) → (⟨S3200000, .i32⟩ : BufTy).Contents (Elt F)),
    ternary main_v28 main_v30 main_v24 main_v31 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v31 main_v32 (broadcastInDim S3200000x1 ![0] bcast_S3200000_S3200000x1_0 : (⟨S3200000, .i32⟩ : BufTy).Contents (Elt F) → (⟨S3200000x1, .i32⟩ : BufTy).Contents (Elt F)),
    binary main_v22 main_v32 main_v33 ((fun x i => Host.gather gather_S100000x40_S3200000x1_S3200000x40_1_0_n_n_0_1_140 x i) : (⟨S100000x40, .f32⟩ : BufTy).Contents (Elt F) → (⟨S3200000x1, .i32⟩ : BufTy).Contents (Elt F) → (⟨S3200000x40, .f32⟩ : BufTy).Contents (Elt F)),
    nullary main_cst_3 (constant S_ .f32 0x00000000#32),
    unary main_cst_3 main_v34 (broadcastInDim S100000x40 ![] bcast_S_S100000x40 : (⟨S_, .f32⟩ : BufTy).Contents (Elt F) → (⟨S100000x40, .f32⟩ : BufTy).Contents (Elt F)),
    unary main_v26 main_v35 (broadcastInDim S3200000x1 ![0] bcast_S3200000_S3200000x1_0 : (⟨S3200000, .i32⟩ : BufTy).Contents (Elt F) → (⟨S3200000x1, .i32⟩ : BufTy).Contents (Elt F)),
    ternary main_v34 main_v35 main_v33 main_v36 ((fun x i u => Host.scatterAdd scatter_S100000x40_S3200000x1_S3200000x40_1_0_0_1 x i u) : (⟨S100000x40, .f32⟩ : BufTy).Contents (Elt F) → (⟨S3200000x1, .i32⟩ : BufTy).Contents (Elt F) → (⟨S3200000x40, .f32⟩ : BufTy).Contents (Elt F) → (⟨S100000x40, .f32⟩ : BufTy).Contents (Elt F)),
    TRef.nullary main_call1.cst (constant S_ .f32 0xFF800000#32),
    TRef.binary (.of main_v36 : TRef sig ⟨S100000x40, .f32⟩) main_call1.cst main_call1.v0 (fun x v => Host.reduce FloatOps.maximumf x v reducesTo_S100000x40_S100000_d1 h_S_),
    TRef.nullary main_call1.cst_0 (constant S_ .f32 0xFF800000#32),
    TRef.unary main_call1.cst_0 main_call1.v1 (broadcastInDim S100000 ![] bcast_S_S100000),
    TRef.binary main_call1.v1 main_call1.v0 main_call1.v2 maximumf,
    TRef.unary main_call1.v2 main_call1.v3 (broadcastInDim S100000x1 ![0] bcast_S100000_S100000x1_0),
    TRef.unary main_call1.v3 main_call1.v4 (broadcastInDim S100000x40 ![0, 1] bcast_S100000x1_S100000x40_0_1),
    TRef.binary (.of main_v36 : TRef sig ⟨S100000x40, .f32⟩) main_call1.v4 main_call1.v5 subf,
    TRef.unary main_call1.v5 main_call1.v6 Host.exp,
    TRef.nullary main_call1.cst_1 (constant S_ .f32 0x00000000#32),
    TRef.binary main_call1.v6 main_call1.cst_1 main_call1.v7 (fun x v => Host.reduceAdd x v reducesTo_S100000x40_S100000_d1 h_S_),
    TRef.unary main_call1.v7 main_call1.v8 (broadcastInDim S100000x1 ![0] bcast_S100000_S100000x1_0),
    TRef.unary main_call1.v8 main_call1.v9 Host.log,
    TRef.unary main_call1.v9 main_call1.v10 (broadcastInDim S100000x40 ![0, 1] bcast_S100000x1_S100000x40_0_1),
    TRef.binary main_call1.v5 main_call1.v10 main_call1.v11 subf ]

/-- The whole line is the six stages' lines one after the other. -/
theorem ops_split : (ops : List (HloOp τ sig (Elt F))) = opsA1 ++ (opsG1 ++ (opsE ++ (opsA2 ++ (opsG2 ++ opsL)))) := rfl

/-- The program is that straight line: the outlined functions unfolded at their calls and the records at their
    fields, both sides are one chain of steps (sequencing on a concrete chain of steps reassociates by
    computation). -/
theorem main_eq (c : Dev nD) : main (F := F) c = seq ops := by chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-! ## Each stage's result, and what each stage leaves alone

The fold of one stage's operations at the stage's result buffer is the stage function of the contents of the
buffers it reads, from ANY contents: each operation's result decides whether the buffer read is the one it
writes, and the typed references' casts are the identity at these literal references. The gather, the scatter-add,
the reductions and the transcendental functions are kept folded meanwhile: the equation never looks inside them.
No stage writes an argument's buffer. -/

/-- Contents carried to a typed reference's buffer and back are the contents. -/
theorem ofBuf_toBuf {T : BufTy} (x : TRef sig T) (v : T.Contents (Elt F)) : x.ofBuf (x.toBuf v) = v := by
  obtain ⟨r, h, a, b⟩ := x
  subst h
  rfl

/-- At the log-softmax's argument and result buffers the typed references' transports are the identity. -/
theorem ofBuf_v36 (w : (main_v36 : Ref sig .tc).ty.Contents (Elt F)) :
    (TRef.of main_v36 : TRef sig ⟨S100000x40, .f32⟩).ofBuf w = w := rfl
theorem toBuf_v37 (v : (⟨S100000x40, .f32⟩ : BufTy).Contents (Elt F)) :
    (TRef.of main_v37 : TRef sig ⟨S100000x40, .f32⟩).toBuf v = v := rfl

theorem A1_out (W : Valuation τ sig (Elt F)) :
    after opsA1 W (main_v3 : DevRef τ sig) = lin1 (W (main_arg0 : DevRef τ sig)) (W (main_arg2 : DevRef τ sig)) (W (main_arg3 : DevRef τ sig)) := by
  unfold lin1
  after_results <;> rfl

theorem G1_out (W : Valuation τ sig (Elt F)) :
    after opsG1 W (main_v17 : DevRef τ sig) = agg64 (W (main_v3 : DevRef τ sig)) (W (main_arg1 : DevRef τ sig)) := by
  unfold agg64 wrapIdx srcIdx dstIdx
  after_results <;> rfl

theorem E_out (W : Valuation τ sig (Elt F)) :
    after opsE W (main_v18 : DevRef τ sig) = elu (W (main_v17 : DevRef τ sig)) := by
  unfold elu
  after_results <;> rfl

theorem A2_out (W : Valuation τ sig (Elt F)) :
    after opsA2 W (main_v22 : DevRef τ sig) = lin2 (W (main_v18 : DevRef τ sig)) (W (main_arg4 : DevRef τ sig)) (W (main_arg5 : DevRef τ sig)) := by
  unfold lin2
  after_results <;> rfl

theorem G2_out (W : Valuation τ sig (Elt F)) :
    after opsG2 W (main_v36 : DevRef τ sig) = agg40 (W (main_v22 : DevRef τ sig)) (W (main_arg1 : DevRef τ sig)) := by
  unfold agg40 wrapIdx srcIdx dstIdx
  after_results <;> rfl

theorem L_out (W : Valuation τ sig (Elt F)) :
    after opsL W (main_v37 : DevRef τ sig) = lsm (W (main_v36 : DevRef τ sig)) := by
  unfold lsm lsmShift lsmMax
  after_results
  simp only [ofBuf_toBuf]
  generalize W (Proc.devRef .tc main_v36) = w
  rw [ofBuf_v36 w]
  exact toBuf_v37 _

theorem A1_arg0 (W : Valuation τ sig (Elt F)) : after opsA1 W (main_arg0 : DevRef τ sig) = W (main_arg0 : DevRef τ sig) :=
  after_of_writes_sub opsA1 W wrA1_sub (by decide)
theorem A1_arg1 (W : Valuation τ sig (Elt F)) : after opsA1 W (main_arg1 : DevRef τ sig) = W (main_arg1 : DevRef τ sig) :=
  after_of_writes_sub opsA1 W wrA1_sub (by decide)
theorem A1_arg2 (W : Valuation τ sig (Elt F)) : after opsA1 W (main_arg2 : DevRef τ sig) = W (main_arg2 : DevRef τ sig) :=
  after_of_writes_sub opsA1 W wrA1_sub (by decide)
theorem A1_arg3 (W : Valuation τ sig (Elt F)) : after opsA1 W (main_arg3 : DevRef τ sig) = W (main_arg3 : DevRef τ sig) :=
  after_of_writes_sub opsA1 W wrA1_sub (by decide)
theorem A1_arg4 (W : Valuation τ sig (Elt F)) : after opsA1 W (main_arg4 : DevRef τ sig) = W (main_arg4 : DevRef τ sig) :=
  after_of_writes_sub opsA1 W wrA1_sub (by decide)
theorem A1_arg5 (W : Valuation τ sig (Elt F)) : after opsA1 W (main_arg5 : DevRef τ sig) = W (main_arg5 : DevRef τ sig) :=
  after_of_writes_sub opsA1 W wrA1_sub (by decide)
theorem G1_arg0 (W : Valuation τ sig (Elt F)) : after opsG1 W (main_arg0 : DevRef τ sig) = W (main_arg0 : DevRef τ sig) :=
  after_of_writes_sub opsG1 W wrG1_sub (by decide)
theorem G1_arg1 (W : Valuation τ sig (Elt F)) : after opsG1 W (main_arg1 : DevRef τ sig) = W (main_arg1 : DevRef τ sig) :=
  after_of_writes_sub opsG1 W wrG1_sub (by decide)
theorem G1_arg2 (W : Valuation τ sig (Elt F)) : after opsG1 W (main_arg2 : DevRef τ sig) = W (main_arg2 : DevRef τ sig) :=
  after_of_writes_sub opsG1 W wrG1_sub (by decide)
theorem G1_arg3 (W : Valuation τ sig (Elt F)) : after opsG1 W (main_arg3 : DevRef τ sig) = W (main_arg3 : DevRef τ sig) :=
  after_of_writes_sub opsG1 W wrG1_sub (by decide)
theorem G1_arg4 (W : Valuation τ sig (Elt F)) : after opsG1 W (main_arg4 : DevRef τ sig) = W (main_arg4 : DevRef τ sig) :=
  after_of_writes_sub opsG1 W wrG1_sub (by decide)
theorem G1_arg5 (W : Valuation τ sig (Elt F)) : after opsG1 W (main_arg5 : DevRef τ sig) = W (main_arg5 : DevRef τ sig) :=
  after_of_writes_sub opsG1 W wrG1_sub (by decide)
theorem E_arg0 (W : Valuation τ sig (Elt F)) : after opsE W (main_arg0 : DevRef τ sig) = W (main_arg0 : DevRef τ sig) :=
  after_of_writes_sub opsE W wrE_sub (by decide)
theorem E_arg1 (W : Valuation τ sig (Elt F)) : after opsE W (main_arg1 : DevRef τ sig) = W (main_arg1 : DevRef τ sig) :=
  after_of_writes_sub opsE W wrE_sub (by decide)
theorem E_arg2 (W : Valuation τ sig (Elt F)) : after opsE W (main_arg2 : DevRef τ sig) = W (main_arg2 : DevRef τ sig) :=
  after_of_writes_sub opsE W wrE_sub (by decide)
theorem E_arg3 (W : Valuation τ sig (Elt F)) : after opsE W (main_arg3 : DevRef τ sig) = W (main_arg3 : DevRef τ sig) :=
  after_of_writes_sub opsE W wrE_sub (by decide)
theorem E_arg4 (W : Valuation τ sig (Elt F)) : after opsE W (main_arg4 : DevRef τ sig) = W (main_arg4 : DevRef τ sig) :=
  after_of_writes_sub opsE W wrE_sub (by decide)
theorem E_arg5 (W : Valuation τ sig (Elt F)) : after opsE W (main_arg5 : DevRef τ sig) = W (main_arg5 : DevRef τ sig) :=
  after_of_writes_sub opsE W wrE_sub (by decide)
theorem A2_arg0 (W : Valuation τ sig (Elt F)) : after opsA2 W (main_arg0 : DevRef τ sig) = W (main_arg0 : DevRef τ sig) :=
  after_of_writes_sub opsA2 W wrA2_sub (by decide)
theorem A2_arg1 (W : Valuation τ sig (Elt F)) : after opsA2 W (main_arg1 : DevRef τ sig) = W (main_arg1 : DevRef τ sig) :=
  after_of_writes_sub opsA2 W wrA2_sub (by decide)
theorem A2_arg2 (W : Valuation τ sig (Elt F)) : after opsA2 W (main_arg2 : DevRef τ sig) = W (main_arg2 : DevRef τ sig) :=
  after_of_writes_sub opsA2 W wrA2_sub (by decide)
theorem A2_arg3 (W : Valuation τ sig (Elt F)) : after opsA2 W (main_arg3 : DevRef τ sig) = W (main_arg3 : DevRef τ sig) :=
  after_of_writes_sub opsA2 W wrA2_sub (by decide)
theorem A2_arg4 (W : Valuation τ sig (Elt F)) : after opsA2 W (main_arg4 : DevRef τ sig) = W (main_arg4 : DevRef τ sig) :=
  after_of_writes_sub opsA2 W wrA2_sub (by decide)
theorem A2_arg5 (W : Valuation τ sig (Elt F)) : after opsA2 W (main_arg5 : DevRef τ sig) = W (main_arg5 : DevRef τ sig) :=
  after_of_writes_sub opsA2 W wrA2_sub (by decide)
theorem G2_arg0 (W : Valuation τ sig (Elt F)) : after opsG2 W (main_arg0 : DevRef τ sig) = W (main_arg0 : DevRef τ sig) :=
  after_of_writes_sub opsG2 W wrG2_sub (by decide)
theorem G2_arg1 (W : Valuation τ sig (Elt F)) : after opsG2 W (main_arg1 : DevRef τ sig) = W (main_arg1 : DevRef τ sig) :=
  after_of_writes_sub opsG2 W wrG2_sub (by decide)
theorem G2_arg2 (W : Valuation τ sig (Elt F)) : after opsG2 W (main_arg2 : DevRef τ sig) = W (main_arg2 : DevRef τ sig) :=
  after_of_writes_sub opsG2 W wrG2_sub (by decide)
theorem G2_arg3 (W : Valuation τ sig (Elt F)) : after opsG2 W (main_arg3 : DevRef τ sig) = W (main_arg3 : DevRef τ sig) :=
  after_of_writes_sub opsG2 W wrG2_sub (by decide)
theorem G2_arg4 (W : Valuation τ sig (Elt F)) : after opsG2 W (main_arg4 : DevRef τ sig) = W (main_arg4 : DevRef τ sig) :=
  after_of_writes_sub opsG2 W wrG2_sub (by decide)
theorem G2_arg5 (W : Valuation τ sig (Elt F)) : after opsG2 W (main_arg5 : DevRef τ sig) = W (main_arg5 : DevRef τ sig) :=
  after_of_writes_sub opsG2 W wrG2_sub (by decide)
theorem L_arg0 (W : Valuation τ sig (Elt F)) : after opsL W (main_arg0 : DevRef τ sig) = W (main_arg0 : DevRef τ sig) :=
  after_of_writes_sub opsL W wrL_sub (by decide)
theorem L_arg1 (W : Valuation τ sig (Elt F)) : after opsL W (main_arg1 : DevRef τ sig) = W (main_arg1 : DevRef τ sig) :=
  after_of_writes_sub opsL W wrL_sub (by decide)
theorem L_arg2 (W : Valuation τ sig (Elt F)) : after opsL W (main_arg2 : DevRef τ sig) = W (main_arg2 : DevRef τ sig) :=
  after_of_writes_sub opsL W wrL_sub (by decide)
theorem L_arg3 (W : Valuation τ sig (Elt F)) : after opsL W (main_arg3 : DevRef τ sig) = W (main_arg3 : DevRef τ sig) :=
  after_of_writes_sub opsL W wrL_sub (by decide)
theorem L_arg4 (W : Valuation τ sig (Elt F)) : after opsL W (main_arg4 : DevRef τ sig) = W (main_arg4 : DevRef τ sig) :=
  after_of_writes_sub opsL W wrL_sub (by decide)
theorem L_arg5 (W : Valuation τ sig (Elt F)) : after opsL W (main_arg5 : DevRef τ sig) = W (main_arg5 : DevRef τ sig) :=
  after_of_writes_sub opsL W wrL_sub (by decide)

/-! ## The read-back -/

/-- The result buffer after the whole line holds the six stages' composition of the arguments' contents. -/
theorem out_eq (V : Valuation τ sig (Elt F)) :
    after ops V (main_v37 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  rw [ops_split, after_append, after_append, after_append, after_append, after_append]
  rw [L_out, G2_out, A2_out, A2_arg1, E_out, E_arg1, E_arg4, E_arg5, G1_out, G1_arg1, G1_arg4, G1_arg5,
    A1_out, A1_arg1, A1_arg4, A1_arg5]
  rfl

theorem arg0_eq (V : Valuation τ sig (Elt F)) :
    after ops V (main_arg0 : DevRef τ sig) = V (main_arg0 : DevRef τ sig) := by
  rw [ops_split, after_append, after_append, after_append, after_append, after_append]
  exact (L_arg0 _).trans ((G2_arg0 _).trans ((A2_arg0 _).trans ((E_arg0 _).trans ((G1_arg0 _).trans (A1_arg0 _)))))

theorem arg1_eq (V : Valuation τ sig (Elt F)) :
    after ops V (main_arg1 : DevRef τ sig) = V (main_arg1 : DevRef τ sig) := by
  rw [ops_split, after_append, after_append, after_append, after_append, after_append]
  exact (L_arg1 _).trans ((G2_arg1 _).trans ((A2_arg1 _).trans ((E_arg1 _).trans ((G1_arg1 _).trans (A1_arg1 _)))))

theorem arg2_eq (V : Valuation τ sig (Elt F)) :
    after ops V (main_arg2 : DevRef τ sig) = V (main_arg2 : DevRef τ sig) := by
  rw [ops_split, after_append, after_append, after_append, after_append, after_append]
  exact (L_arg2 _).trans ((G2_arg2 _).trans ((A2_arg2 _).trans ((E_arg2 _).trans ((G1_arg2 _).trans (A1_arg2 _)))))

theorem arg3_eq (V : Valuation τ sig (Elt F)) :
    after ops V (main_arg3 : DevRef τ sig) = V (main_arg3 : DevRef τ sig) := by
  rw [ops_split, after_append, after_append, after_append, after_append, after_append]
  exact (L_arg3 _).trans ((G2_arg3 _).trans ((A2_arg3 _).trans ((E_arg3 _).trans ((G1_arg3 _).trans (A1_arg3 _)))))

theorem arg4_eq (V : Valuation τ sig (Elt F)) :
    after ops V (main_arg4 : DevRef τ sig) = V (main_arg4 : DevRef τ sig) := by
  rw [ops_split, after_append, after_append, after_append, after_append, after_append]
  exact (L_arg4 _).trans ((G2_arg4 _).trans ((A2_arg4 _).trans ((E_arg4 _).trans ((G1_arg4 _).trans (A1_arg4 _)))))

theorem arg5_eq (V : Valuation τ sig (Elt F)) :
    after ops V (main_arg5 : DevRef τ sig) = V (main_arg5 : DevRef τ sig) := by
  rw [ops_split, after_append, after_append, after_append, after_append, after_append]
  exact (L_arg5 _).trans ((G2_arg5 _).trans ((A2_arg5 _).trans ((E_arg5 _).trans ((G1_arg5 _).trans (A1_arg5 _)))))

/-- On every device, for any float values, from any memory with zero counters: every weakly fair execution of
    the program terminates with the result buffer at the six stages' composition of the arguments' launch
    contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v37)
        = refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v37).trans ((out_eq _).trans rfl),
      (h c main_arg0).trans ((arg0_eq _).trans rfl), (h c main_arg1).trans ((arg1_eq _).trans rfl),
      (h c main_arg2).trans ((arg2_eq _).trans rfl), (h c main_arg3).trans ((arg3_eq _).trans rfl),
      (h c main_arg4).trans ((arg4_eq _).trans rfl), (h c main_arg5).trans ((arg5_eq _).trans rfl)⟩)
    (run_seq scopedRefs_eq scopedSems_eq defs main (fun _ => ops) main_eq (fun _ => ops_sub) m ρ)

end Cert.ReferenceIdeal.RefRun

end
-- ==== Proof.RefDense.lean ====
/-
  The reference's two dense layers at the exact values, index by index: the host's product is the sum over the
  contracted coordinate of the operands' products, and the bias, made one row and copied down the rows, adds its entry at the column.
-/
import proofs.«169057_j40063454937539_2_alg».proof.Proof.Gen.ReferenceIdeal
import proofs.«169057_j40063454937539_2_alg».proof.Proof.Spec
import Idealize.ShloMosaic.PureOps.Ideal.Laws
import Idealize.ShloMosaic.Lib.ValueIdx
import Idealize.ShloMosaic.Lib.IdealHost
import Idealize.ShloMosaic.Lib.StackMember
import Idealize.ShloMosaic.Lib.Pipeline.Value

noncomputable section

namespace Cert.ReferenceIdeal.RefDense

open Cert.ReferenceIdeal Cert.ReferenceIdeal.Gen Idealize.ShloMosaic Idealize.ShloMosaic.ValueIdx
open scoped BigOperators

/-- The first dense layer's term. -/
def linTerm1 (x : FVec Ideal S100000x512 .f32) (w : FVec Ideal S512x64 .f32) (b : FVec Ideal S64 .f32) : FVec Ideal S100000x64 .f32 :=
  addf (F := Ideal) (Host.dotGeneral (F := Ideal) dot_S100000x512_S512x64_S100000x64_1_0_0_1_n_n none x w)
    (broadcastInDim S100000x64 ![0, 1] bcast_S1x64_S100000x64_0_1 (broadcastInDim S1x64 ![1] bcast_S64_S1x64_1 b))

/-- The second dense layer's term. -/
def linTerm2 (h : FVec Ideal S100000x64 .f32) (w : FVec Ideal S64x40 .f32) (b : FVec Ideal S40 .f32) : FVec Ideal S100000x40 .f32 :=
  addf (F := Ideal) (Host.dotGeneral (F := Ideal) dot_S100000x64_S64x40_S100000x40_1_0_0_1_n_n none h w)
    (broadcastInDim S100000x40 ![0, 1] bcast_S1x40_S100000x40_0_1 (broadcastInDim S1x40 ![1] bcast_S40_S1x40_1 b))

section Layout
variable {α : Type}

/-- A vector of `d` entries made one row and copied down `n` rows reads, at (r, q), the vector's entry q. -/
theorem bias_apply {n d : Nat} (h1 : (⟨1, ![d]⟩ : Shape).BroadcastsInDim ⟨2, ![1, d]⟩ ![1])
    (h2 : (⟨2, ![1, d]⟩ : Shape).BroadcastsInDim ⟨2, ![n, d]⟩ ![0, 1]) (b : (⟨1, ![d]⟩ : Shape).Idx → α)
    (r : Fin n) (q : Fin d) :
    broadcastInDim ⟨2, ![n, d]⟩ ![0, 1] h2 (broadcastInDim ⟨2, ![1, d]⟩ ![1] h1 b) (ix2 r q) = b (ix1 q) := by
  refine (broadcastInDim_apply _ _ _ (ix2 r q) (ix2 (0 : Fin 1) q) ?_).trans ?_
  · intro a
    match a with
    | ⟨0, _⟩ => rfl
    | ⟨1, _⟩ =>
      show q.val = if d = 1 then 0 else q.val
      split
      · have := q.isLt; omega
      · rfl
  · refine broadcastInDim_apply _ _ _ (ix2 (0 : Fin 1) q) (ix1 q) ?_
    intro a
    match a with
    | ⟨0, _⟩ =>
      show q.val = if d = 1 then 0 else q.val
      split
      · have := q.isLt; omega
      · rfl

end Layout

/-- The first dense layer, index by index. -/
theorem linTerm1_eq (x : FVec Ideal S100000x512 .f32) (w : FVec Ideal S512x64 .f32) (b : FVec Ideal S64 .f32) :
    linTerm1 x w b = Cert.Spec.dense (n := 100000) (k := 512) (d := 64) x w (fun q => b (ix1 q)) := by
  funext i
  obtain ⟨r, q, rfl⟩ : ∃ (r : Fin 100000) (q : Fin 64), i = ix2 r q := ⟨i 0, i 1, eq_ix2 i⟩
  show Host.dotGeneral (F := Ideal) (DotDims.plain 100000 512 64) none x w (ix2 r q)
      + broadcastInDim S100000x64 ![0, 1] bcast_S1x64_S100000x64_0_1 (broadcastInDim S1x64 ![1] bcast_S64_S1x64_1 b) (ix2 r q)
    = (∑ kk : Fin 512, x (ix2 r kk) * w (ix2 kk q)) + b (ix1 q)
  rw [StackMember.dotGeneral_plain_apply none x w r q]
  exact congrArg _ (bias_apply _ _ b r q)

/-- The second dense layer, index by index. -/
theorem linTerm2_eq (h : FVec Ideal S100000x64 .f32) (w : FVec Ideal S64x40 .f32) (b : FVec Ideal S40 .f32) :
    linTerm2 h w b = Cert.Spec.dense (n := 100000) (k := 64) (d := 40) h w (fun q => b (ix1 q)) := by
  funext i
  obtain ⟨r, q, rfl⟩ : ∃ (r : Fin 100000) (q : Fin 40), i = ix2 r q := ⟨i 0, i 1, eq_ix2 i⟩
  show Host.dotGeneral (F := Ideal) (DotDims.plain 100000 64 40) none h w (ix2 r q)
      + broadcastInDim S100000x40 ![0, 1] bcast_S1x40_S100000x40_0_1 (broadcastInDim S1x40 ![1] bcast_S40_S1x40_1 b) (ix2 r q)
    = (∑ kk : Fin 64, h (ix2 r kk) * w (ix2 kk q)) + b (ix1 q)
  rw [StackMember.dotGeneral_plain_apply none h w r q]
  exact congrArg _ (bias_apply _ _ b r q)

end Cert.ReferenceIdeal.RefDense

end
-- ==== Proof.RefElu.lean ====
/-
  The reference's exponential-linear unit at the exact values, entry by entry: the identity above zero, and elsewhere
  one times the exponential less one of the entry itself (the inner selection picks the entry, its own minimum with zero).
-/
import proofs.«169057_j40063454937539_2_alg».proof.Proof.Gen.ReferenceIdeal
import proofs.«169057_j40063454937539_2_alg».proof.Proof.Spec
import Idealize.ShloMosaic.PureOps.Ideal.Laws
import Idealize.ShloMosaic.Lib.ValueIdx
import Idealize.ShloMosaic.Lib.IdealHost
import Idealize.ShloMosaic.Lib.StackMember
import Idealize.ShloMosaic.Lib.Pipeline.Value

noncomputable section

namespace Cert.ReferenceIdeal.RefElu

open Cert.ReferenceIdeal Cert.ReferenceIdeal.Gen Idealize.ShloMosaic Idealize.ShloMosaic.ValueIdx
open scoped BigOperators

/-- The exponential-linear unit's term. -/
def eluTerm (h : FVec Ideal S100000x64 .f32) : FVec Ideal S100000x64 .f32 :=
  select (cmpf (F := Ideal) .ogt h (broadcastInDim S100000x64 ![] bcast_S_S100000x64 (constant (F := Ideal) S_ .f32 0x00000000#32))) h
    (mulf (F := Ideal) (broadcastInDim S100000x64 ![] bcast_S_S100000x64 (constant (F := Ideal) S_ .f32 0x3F800000#32))
      (Host.expm1 (F := Ideal) (select (cmpf (F := Ideal) .ogt h (broadcastInDim S100000x64 ![] bcast_S_S100000x64 (constant (F := Ideal) S_ .f32 0x00000000#32)))
        (broadcastInDim S100000x64 ![] bcast_S_S100000x64 (constant (F := Ideal) S_ .f32 0x00000000#32)) h)))

/-- The exponential-linear unit, entry by entry: above zero both selections take the entry; elsewhere the
    inner selection takes the entry, which is then its own minimum with zero, and one times a value is the value. -/
theorem eluTerm_eq (h : FVec Ideal S100000x64 .f32) : eluTerm h = fun i => Cert.Spec.elu (h i) := by
  funext i
  have hz : broadcastInDim S100000x64 ![] bcast_S_S100000x64 (constant (F := Ideal) S_ .f32 0x00000000#32) i = (0 : EReal) :=
    (broadcastInDim_scalar_apply _ _ i).trans Ideal.ofBits_zero_f32
  have ho : broadcastInDim S100000x64 ![] bcast_S_S100000x64 (constant (F := Ideal) S_ .f32 0x3F800000#32) i = (1 : EReal) :=
    (broadcastInDim_scalar_apply _ _ i).trans Ideal.ofBits_one_f32
  show Scalar.select (Ideal.cmp .ogt (h i) (broadcastInDim S100000x64 ![] bcast_S_S100000x64 (constant (F := Ideal) S_ .f32 0x00000000#32) i)) (h i)
      ((broadcastInDim S100000x64 ![] bcast_S_S100000x64 (constant (F := Ideal) S_ .f32 0x3F800000#32) i)
        * (Ideal.exp (Scalar.select (Ideal.cmp .ogt (h i) (broadcastInDim S100000x64 ![] bcast_S_S100000x64 (constant (F := Ideal) S_ .f32 0x00000000#32) i))
            (broadcastInDim S100000x64 ![] bcast_S_S100000x64 (constant (F := Ideal) S_ .f32 0x00000000#32) i) (h i)) - 1))
    = Cert.Spec.elu (h i)
  rw [hz, ho]
  unfold Cert.Spec.elu
  by_cases hp : (0 : EReal) < h i
  · have hc : Ideal.cmp .ogt (h i) 0 = 1#1 := by simp [Ideal.cmp, hp]
    rw [hc, select_one, if_pos hp]
  · have hc : Ideal.cmp .ogt (h i) 0 = 0#1 := by simp [Ideal.cmp, hp]
    rw [hc, select_zero, select_zero, one_mul, min_eq_left (not_lt.mp hp), if_neg hp]

end Cert.ReferenceIdeal.RefElu

end
-- ==== Proof.RefLsm.lean ====
/-
  The reference's row-wise log-softmax at the exact values, index by index: each entry less its row's maximum, less the
  logarithm of the row's sum of exponentials of the entries so shifted; the row maximum is a fold of max from the pattern of −∞.
-/
import proofs.«169057_j40063454937539_2_alg».proof.Proof.Gen.ReferenceIdeal
import proofs.«169057_j40063454937539_2_alg».proof.Proof.Spec
import Idealize.ShloMosaic.PureOps.Ideal.Laws
import Idealize.ShloMosaic.Lib.ValueIdx
import Idealize.ShloMosaic.Lib.IdealHost
import Idealize.ShloMosaic.Lib.StackMember
import Idealize.ShloMosaic.Lib.Pipeline.Value

noncomputable section

namespace Cert.ReferenceIdeal.RefLsm

open Cert.ReferenceIdeal Cert.ReferenceIdeal.Gen Idealize.ShloMosaic Idealize.ShloMosaic.ValueIdx
open scoped BigOperators

/-- A row's maximum, as the program computes it. -/
def lsmMaxTerm (x : FVec Ideal S100000x40 .f32) : FVec Ideal S100000 .f32 :=
  maximumf (F := Ideal) (broadcastInDim S100000 ![] bcast_S_S100000 (constant (F := Ideal) S_ .f32 0xFF800000#32))
    (Host.reduce (FloatOps.maximumf (F := Ideal) (φ := .f32)) x (constant (F := Ideal) S_ .f32 0xFF800000#32) reducesTo_S100000x40_S100000_d1 h_S_)

/-- The entries less their row's maximum. -/
def lsmShiftTerm (x : FVec Ideal S100000x40 .f32) : FVec Ideal S100000x40 .f32 :=
  subf (F := Ideal) x (broadcastInDim S100000x40 ![0, 1] bcast_S100000x1_S100000x40_0_1
    (broadcastInDim S100000x1 ![0] bcast_S100000_S100000x1_0 (lsmMaxTerm x)))

/-- The log-softmax's term. -/
def lsmTerm (x : FVec Ideal S100000x40 .f32) : FVec Ideal S100000x40 .f32 :=
  subf (F := Ideal) (lsmShiftTerm x) (broadcastInDim S100000x40 ![0, 1] bcast_S100000x1_S100000x40_0_1
    (Host.log (F := Ideal) (broadcastInDim S100000x1 ![0] bcast_S100000_S100000x1_0
      (Host.reduceAdd (F := Ideal) (Host.exp (F := Ideal) (lsmShiftTerm x)) (constant (F := Ideal) S_ .f32 0x00000000#32) reducesTo_S100000x40_S100000_d1 h_S_))))

section Layout
variable {α : Type}

/-- A vector of `n` entries made one column and copied along `d` columns reads, at (r, c), the vector's entry r. -/
theorem col_apply {n d : Nat} (h1 : (⟨1, ![n]⟩ : Shape).BroadcastsInDim ⟨2, ![n, 1]⟩ ![0])
    (h2 : (⟨2, ![n, 1]⟩ : Shape).BroadcastsInDim ⟨2, ![n, d]⟩ ![0, 1]) (v : (⟨1, ![n]⟩ : Shape).Idx → α)
    (r : Fin n) (c : Fin d) :
    broadcastInDim ⟨2, ![n, d]⟩ ![0, 1] h2 (broadcastInDim ⟨2, ![n, 1]⟩ ![0] h1 v) (ix2 r c) = v (ix1 r) := by
  refine (broadcastInDim_apply _ _ _ (ix2 r c) (ix2 r (0 : Fin 1)) ?_).trans ?_
  · intro a
    match a with
    | ⟨0, _⟩ =>
      show r.val = if n = 1 then 0 else r.val
      split
      · have := r.isLt; omega
      · rfl
    | ⟨1, _⟩ => rfl
  · refine broadcastInDim_apply _ _ _ (ix2 r (0 : Fin 1)) (ix1 r) ?_
    intro a
    match a with
    | ⟨0, _⟩ =>
      show r.val = if n = 1 then 0 else r.val
      split
      · have := r.isLt; omega
      · rfl

/-- The column alone (before it is copied along the columns) reads, at (r, 0), the vector's entry r. -/
theorem col1_apply {n : Nat} (h1 : (⟨1, ![n]⟩ : Shape).BroadcastsInDim ⟨2, ![n, 1]⟩ ![0])
    (v : (⟨1, ![n]⟩ : Shape).Idx → α) (r : Fin n) :
    broadcastInDim ⟨2, ![n, 1]⟩ ![0] h1 v (ix2 r (0 : Fin 1)) = v (ix1 r) := by
  refine broadcastInDim_apply _ _ _ (ix2 r (0 : Fin 1)) (ix1 r) ?_
  intro a
  match a with
  | ⟨0, _⟩ =>
    show r.val = if n = 1 then 0 else r.val
    split
    · have := r.isLt; omega
    · rfl

/-- A one-column matrix copied along `d` columns reads, at (r, c), the column's entry (r, 0). -/
theorem cols_apply {n d : Nat} (h2 : (⟨2, ![n, 1]⟩ : Shape).BroadcastsInDim ⟨2, ![n, d]⟩ ![0, 1])
    (u : (⟨2, ![n, 1]⟩ : Shape).Idx → α) (r : Fin n) (c : Fin d) :
    broadcastInDim ⟨2, ![n, d]⟩ ![0, 1] h2 u (ix2 r c) = u (ix2 r (0 : Fin 1)) := by
  refine broadcastInDim_apply _ _ _ (ix2 r c) (ix2 r (0 : Fin 1)) ?_
  intro a
  match a with
  | ⟨0, _⟩ =>
    show r.val = if n = 1 then 0 else r.val
    split
    · have := r.isLt; omega
    · rfl
  | ⟨1, _⟩ => rfl

end Layout

/-- The inserted index of row r at column k. -/
theorem lift_row (h : S100000x40.Reduces [1] S100000) (r : Fin 100000) (k : Fin 40) :
    h.lift (ix1 r) k = ix2 r k := by
  funext a
  refine Fin.ext ?_
  match a with
  | ⟨0, _⟩ => rfl
  | ⟨1, _⟩ => rfl

theorem reduces_row : S100000x40.Reduces [1] S100000 := by decide

/-- The host's maximum over the columns, at row r: the fold of max over the row from the initial value. -/
theorem hostMax_apply (x : FVec Ideal S100000x40 .f32) (init : S_.Idx → Ideal .f32) (h' : S100000x40.ReducesTo [1] S100000)
    (hu : 0 < S_.numel) (r : Fin 100000) :
    Host.reduce (FloatOps.maximumf (F := Ideal) (φ := .f32)) x init h' hu (ix1 r)
      = (Finset.univ : Finset (Fin 40)).fold max (init (Shape.Idx.first hu)) (fun k => x (ix2 r k)) := by
  refine (Host.reduce_eq_fold_single (FloatOps.maximumf (F := Ideal) (φ := .f32)) x init h' reduces_row hu (ix1 r)).trans ?_
  exact congrArg (Finset.univ.fold max (init (Shape.Idx.first hu))) (funext fun k => congrArg x (lift_row reduces_row r k))

/-- The maximum of the starting value with a fold of max that starts from it is the fold. -/
theorem max_init_fold (a : EReal) (f : Fin 40 → EReal) :
    max a ((Finset.univ : Finset (Fin 40)).fold max a f) = (Finset.univ : Finset (Fin 40)).fold max a f :=
  max_eq_right ((Finset.le_fold_max a).mpr (Or.inl le_rfl))

/-- A row's maximum as the program computes it is the fold of the maximum over the row from the pattern of −∞:
    the fold already starts at that pattern, so the further maximum with it changes nothing. -/
theorem lsmMaxTerm_apply (x : FVec Ideal S100000x40 .f32) (r : Fin 100000) :
    lsmMaxTerm x (ix1 r) = Cert.Spec.rowMax (n := 100000) (d := 40) x r := by
  unfold lsmMaxTerm
  refine (maximumf_apply _ _ (ix1 r)).trans ?_
  rw [hostMax_apply, broadcastInDim_scalar_apply]
  exact max_init_fold _ _

/-- The shifted entries: each entry less its row's maximum. -/
theorem lsmShiftTerm_apply (x : FVec Ideal S100000x40 .f32) (r : Fin 100000) (c : Fin 40) :
    lsmShiftTerm x (ix2 r c) = x (ix2 r c) - Cert.Spec.rowMax (n := 100000) (d := 40) x r := by
  unfold lsmShiftTerm
  refine (subf_apply _ _ (ix2 r c)).trans ?_
  rw [col_apply, lsmMaxTerm_apply]

/-- The host's sum over the columns, at row r: the initial value plus the sum over the row. -/
theorem hostSum_apply (v : FVec Ideal S100000x40 .f32) (init : S_.Idx → Ideal .f32) (h' : S100000x40.ReducesTo [1] S100000)
    (hu : 0 < S_.numel) (r : Fin 100000) :
    Host.reduceAdd (F := Ideal) v init h' hu (ix1 r) = init (Shape.Idx.first hu) + ∑ k : Fin 40, v (ix2 r k) := by
  refine (hostReduceAdd_apply v init h' hu (ix1 r)).trans ?_
  refine (Ideal.hostReduceAdd_single h' reduces_row v _ (ix1 r)).trans ?_
  exact congrArg (init (Shape.Idx.first hu) + ·) (Finset.sum_congr rfl fun k _ => congrArg v (lift_row reduces_row r k))

/-- The host's exponential and logarithm read at an index. -/
theorem hostExp_apply {s : Shape} (v : FVec Ideal s .f32) (j : s.Idx) : Host.exp (F := Ideal) v j = Ideal.exp (v j) := rfl
theorem hostLog_apply {s : Shape} (v : FVec Ideal s .f32) (j : s.Idx) : Host.log (F := Ideal) v j = Ideal.log (v j) := rfl

/-- The row-wise log-softmax, index by index. -/
theorem lsmTerm_eq (x : FVec Ideal S100000x40 .f32) : lsmTerm x = Cert.Spec.logSoftmax (n := 100000) (d := 40) x := by
  funext i
  obtain ⟨r, c, rfl⟩ : ∃ (r : Fin 100000) (c : Fin 40), i = ix2 r c := ⟨i 0, i 1, eq_ix2 i⟩
  unfold lsmTerm
  refine (subf_apply _ _ (ix2 r c)).trans ?_
  rw [lsmShiftTerm_apply, cols_apply, hostLog_apply, col1_apply, hostSum_apply]
  have h0 : constant (F := Ideal) S_ .f32 0x00000000#32 (Shape.Idx.first h_S_) = (0 : EReal) := Ideal.ofBits_zero_f32
  rw [h0, zero_add]
  unfold Cert.Spec.logSoftmax
  refine congrArg (fun s => (x (ix2 r c) - Cert.Spec.rowMax x r) - Ideal.log s) (Finset.sum_congr rfl fun k _ => ?_)
  rw [hostExp_apply, lsmShiftTerm_apply]

end Cert.ReferenceIdeal.RefLsm

end
-- ==== Proof.Bridge.lean ====
/-
  The two programs compute one function of the six arguments. Stage by stage: each dense layer is, on both
  sides, the sum over the contracted coordinate of the products plus the bias (the kernel keeps the bias as a
  one-row matrix, the reference broadcasts the vector: the same entry at each column); the exponential-linear unit
  is one function of each entry in both forms; the row-wise log-softmax likewise, the reference's extra maximum
  with −∞ changing nothing; and the edge aggregation between them is literally the same host operations applied
  to equal features and the same index vectors, so it is never opened.
-/
import proofs.«169057_j40063454937539_2_alg».proof.Proof.KHost
import proofs.«169057_j40063454937539_2_alg».proof.Proof.RefRun
import proofs.«169057_j40063454937539_2_alg».proof.Proof.RefDense
import proofs.«169057_j40063454937539_2_alg».proof.Proof.RefElu
import proofs.«169057_j40063454937539_2_alg».proof.Proof.RefLsm
import Idealize.ShloMosaic.Lib.ValueLayout

noncomputable section

namespace Cert.Proof.Bridge

open Idealize.ShloMosaic Idealize.ShloMosaic.ValueIdx

/-- The contents of a buffer of shape S and element type e, at the exact values. -/
abbrev C (S : Shape) (e : EltTy) := (⟨S, e⟩ : BufTy).Contents (Elt Ideal)

/-- The bias made a one-row matrix reads, at column q of its row, the bias at q. -/
theorem bias64 (b : C Cert.KernelIdeal.S64 .f32) :
    (fun q : Fin 64 => shapeCast Cert.KernelIdeal.S1x64 b Cert.KernelIdeal.Facts₀.shapeCasts_S64_S1x64 (ix2 (0 : Fin 1) q))
      = fun q => b (ix1 q) :=
  funext fun q => shapeCast_a_1a_apply b _ (0 : Fin 1) q
theorem bias40 (b : C Cert.KernelIdeal.S40 .f32) :
    (fun q : Fin 40 => shapeCast Cert.KernelIdeal.S1x40 b Cert.KernelIdeal.Facts₀.shapeCasts_S40_S1x40 (ix2 (0 : Fin 1) q))
      = fun q => b (ix1 q) :=
  funext fun q => shapeCast_a_1a_apply b _ (0 : Fin 1) q

/-- The first dense layer. -/
theorem lin1_eq (x : C Cert.KernelIdeal.S100000x512 .f32) (w : C Cert.KernelIdeal.S512x64 .f32) (b : C Cert.KernelIdeal.S64 .f32) :
    Cert.ReferenceIdeal.RefRun.lin1 (F := Ideal) x w b = Cert.KernelIdeal.KHost.lin1 x w b :=
  (show Cert.ReferenceIdeal.RefRun.lin1 (F := Ideal) x w b = Cert.ReferenceIdeal.RefDense.linTerm1 x w b from rfl).trans
    ((Cert.ReferenceIdeal.RefDense.linTerm1_eq x w b).trans
      (congrArg (Cert.Spec.dense (n := 100000) (k := 512) (d := 64) x w) (bias64 b).symm))

/-- The exponential-linear unit followed by the second dense layer. -/
theorem lin2_eq (h : C Cert.KernelIdeal.S100000x64 .f32) (w : C Cert.KernelIdeal.S64x40 .f32) (b : C Cert.KernelIdeal.S40 .f32) :
    Cert.ReferenceIdeal.RefRun.lin2 (F := Ideal) (Cert.ReferenceIdeal.RefRun.elu (F := Ideal) h) w b = Cert.KernelIdeal.KHost.lin2 h w b := by
  refine (show Cert.ReferenceIdeal.RefRun.lin2 (F := Ideal) (Cert.ReferenceIdeal.RefRun.elu (F := Ideal) h) w b
      = Cert.ReferenceIdeal.RefDense.linTerm2 (Cert.ReferenceIdeal.RefElu.eluTerm h) w b from rfl).trans ?_
  rw [Cert.ReferenceIdeal.RefDense.linTerm2_eq, Cert.ReferenceIdeal.RefElu.eluTerm_eq]
  exact congrArg (Cert.Spec.dense (n := 100000) (k := 64) (d := 40) (fun j => Cert.Spec.elu (h j)) w) (bias40 b).symm

/-- The aggregations are the same host operations on both sides. -/
theorem agg64_eq (h : C Cert.KernelIdeal.S100000x64 .f32) (ei : C Cert.KernelIdeal.S2x3200000 .i32) :
    Cert.ReferenceIdeal.RefRun.agg64 (F := Ideal) h ei
      = Cert.KernelIdeal.KHost.agg64 h (Cert.KernelIdeal.KHost.srcVec ei) (Cert.KernelIdeal.KHost.dstVec ei) := rfl
theorem agg40_eq (h : C Cert.KernelIdeal.S100000x40 .f32) (ei : C Cert.KernelIdeal.S2x3200000 .i32) :
    Cert.ReferenceIdeal.RefRun.agg40 (F := Ideal) h ei
      = Cert.KernelIdeal.KHost.agg40 h (Cert.KernelIdeal.KHost.srcVec ei) (Cert.KernelIdeal.KHost.dstVec ei) := rfl

/-- The log-softmax. -/
theorem lsm_eq (z : C Cert.KernelIdeal.S100000x40 .f32) :
    Cert.ReferenceIdeal.RefRun.lsm (F := Ideal) z = Cert.Spec.logSoftmax (n := 100000) (d := 40) z :=
  (show Cert.ReferenceIdeal.RefRun.lsm (F := Ideal) z = Cert.ReferenceIdeal.RefLsm.lsmTerm z from rfl).trans
    (Cert.ReferenceIdeal.RefLsm.lsmTerm_eq z)

/-- The kernel's function of the six arguments is the reference's. -/
theorem out_eq (x : C Cert.KernelIdeal.S100000x512 .f32) (ei : C Cert.KernelIdeal.S2x3200000 .i32)
    (w1 : C Cert.KernelIdeal.S512x64 .f32) (b1 : C Cert.KernelIdeal.S64 .f32) (w2 : C Cert.KernelIdeal.S64x40 .f32)
    (b2 : C Cert.KernelIdeal.S40 .f32) :
    Cert.KernelIdeal.KHost.out x ei w1 b1 w2 b2 = Cert.ReferenceIdeal.RefRun.refOut (F := Ideal) x ei w1 b1 w2 b2 := by
  unfold Cert.KernelIdeal.KHost.out Cert.ReferenceIdeal.RefRun.refOut
  rw [lsm_eq, agg40_eq, lin2_eq, agg64_eq, lin1_eq]

end Cert.Proof.Bridge

end
-- ==== Proof.lean ====
/-
  The five claims. Both programs are a two-layer graph network: a dense layer of the node features, the sum over
  the incoming edges of the source nodes' rows, the exponential-linear unit and a second dense layer, the same edge
  sum again, and a row-wise log-softmax. The kernel computes the three dense stages in three launches over blocks of
  4000 rows, with the edge sums as host operations between them; the reference is host operations throughout.

  The frames of the two kernel programs are the generated ones; the reference's frame is its run with the result
  dropped. The idealization rewrote nothing. For the value claim, the kernel's run ends with its result buffer at one
  function of the six arguments (each launch's blocks tile its output array, and a block is the stage's value on the
  rows it covers), the reference's run ends at its own composed term of them, and the two are equal stage by stage at
  the exact values — no step of which needs the arguments to be finite.
-/
import proofs.«169057_j40063454937539_2_alg».proof.Defs
import proofs.«169057_j40063454937539_2_alg».proof.Proof.Gen.Kernel
import proofs.«169057_j40063454937539_2_alg».proof.Proof.Gen.Kernel.Frame
import proofs.«169057_j40063454937539_2_alg».proof.Proof.Gen.KernelIdeal
import proofs.«169057_j40063454937539_2_alg».proof.Proof.Gen.KernelIdeal.Frame
import proofs.«169057_j40063454937539_2_alg».proof.Proof.Gen.ReferenceIdeal
import proofs.«169057_j40063454937539_2_alg».proof.Proof.Gen.Pre_finite_inputs
import proofs.«169057_j40063454937539_2_alg».proof.Proof.KRun
import proofs.«169057_j40063454937539_2_alg».proof.Proof.KHost
import proofs.«169057_j40063454937539_2_alg».proof.Proof.RefRun
import proofs.«169057_j40063454937539_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories that agree on the arguments both runs end at the same function of them. -/
theorem algebraic : Cert.algebraic_KernelIdeal_ReferenceIdeal := by
  intro m ρ m' ρ' _ hagree
  refine ⟨fun c => Cert.KernelIdeal.KHost.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KHost.W6_out m ρ c), (h c).2⟩) (Cert.KernelIdeal.KRun.run m ρ)
  · refine (θ_run Cert.ReferenceIdeal.defs _ _).mono (fun r h c => ⟨(h c).1.trans ?_, (h c).2⟩)
      (Cert.ReferenceIdeal.RefRun.run (F := Ideal) m' ρ')
    obtain ⟨a0, a1, a2, a3, a4, a5⟩ := hagree c
    rw [a0, a1, a2, a3, a4, a5]
    exact (Cert.Proof.Bridge.out_eq _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
